-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x24x8 : Shape := ⟨4, ![256, 512, 24, 8]⟩
abbrev S256 : Shape := ⟨1, ![256]⟩
abbrev S_ : Shape := ⟨0, ![]⟩

class Facts : Prop where
  bcast_S_S256x512x24x8 : S_.BroadcastsInDim S256x512x24x8 (![] : Fin 0 → Fin S256x512x24x8.rank)
  reducesTo_S256x512x24x8_S_d0_1_2_3 : S256x512x24x8.ReducesTo [0, 1, 2, 3] S_
  h_S_ : 0 < S_.numel

variable [Facts]

def fn {F : FTy → Type} [FloatOps F] (main_arg0 : FVec F S256x512x24x8 .f32) (main_arg1 : IVec S256 32) : IVec S_ 1 :=
  let main_v0 : FVec F S256x512x24x8 .f32 := Host.absf main_arg0
  let main_cst : FVec F S_ .f32 := constant S_ .f32 0x7F800000#32
  let main_v1 : FVec F S256x512x24x8 .f32 := broadcastInDim S256x512x24x8 ![] bcast_S_S256x512x24x8 main_cst
  let main_v2 : IVec S256x512x24x8 1 := cmpf .olt main_v0 main_v1
  let main_c : IVec S_ 1 := constantI S_ 1 1#1
  let main_v3 : IVec S_ 1 := (fun x v => Host.reduce IntOp.andi x v reducesTo_S256x512x24x8_S_d0_1_2_3 h_S_) main_v2 main_c
  main_v3
-- ==== Kernel.lean ====
abbrev S256x512x24x8 : Shape := ⟨4, ![256, 512, 24, 8]⟩
abbrev S256 : Shape := ⟨1, ![256]⟩
abbrev S_ : Shape := ⟨0, ![]⟩
abbrev S256x98304 : Shape := ⟨2, ![256, 98304]⟩
abbrev S256x256 : Shape := ⟨2, ![256, 256]⟩
abbrev S256x4096 : Shape := ⟨2, ![256, 4096]⟩
abbrev S256x1 : Shape := ⟨2, ![256, 1]⟩
abbrev S4096x256 : Shape := ⟨2, ![4096, 256]⟩
abbrev S1x256 : Shape := ⟨2, ![1, 256]⟩

abbrev nBuf : Space → Nat
  | .hbm => 71
  | .vmem => 5
  | .smem => 0
  | _ => 0

abbrev bufTy : (tb : Table) → Fin (tcTables nBuf tb) → BufTy
  | .hbm, ⟨0, _⟩ => ⟨S256x512x24x8, .f32⟩
  | .hbm, ⟨1, _⟩ => ⟨S256, .i32⟩
  | .hbm, ⟨2, _⟩ => ⟨S_, .f32⟩
  | .hbm, ⟨3, _⟩ => ⟨S_, .f32⟩
  | .hbm, ⟨4, _⟩ => ⟨S256x98304, .f32⟩
  | .hbm, ⟨5, _⟩ => ⟨S256x256, .f32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S256x256, .i1⟩
  | .hbm, ⟨17, _⟩ => ⟨S256x256, .i1⟩
  | .hbm, ⟨18, _⟩ => ⟨S256x256, .i1⟩
  | .hbm, ⟨19, _⟩ => ⟨S256x256, .i1⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256, .f32⟩
  | .hbm, ⟨28, _⟩ => ⟨S_, .i1⟩
  | .hbm, ⟨29, _⟩ => ⟨S256, .i1⟩
  | .hbm, ⟨30, _⟩ => ⟨S_, .i1⟩
  | .hbm, ⟨31, _⟩ => ⟨S256, .i1⟩
  | .hbm, ⟨32, _⟩ => ⟨S256, .i1⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S_, .i32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256, .f32⟩
  | .hbm, ⟨61, _⟩ => ⟨S256, .i1⟩
  | .hbm, ⟨62, _⟩ => ⟨S256, .i1⟩
  | .hbm, ⟨63, _⟩ => ⟨S256, .f32⟩
  | .hbm, ⟨64, _⟩ => ⟨S_, .f32⟩
  | .hbm, ⟨65, _⟩ => ⟨S_, .f32⟩
  | .hbm, ⟨66, _⟩ => ⟨S_, .i32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x256, .f32⟩
  | .local _ .vmem, ⟨3, _⟩ => ⟨S256x256, .f32⟩
  | .local _ .vmem, ⟨4, _⟩ => ⟨S256x1, .f32⟩
  | _, _ => ⟨S256x512x24x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_call1_v0 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_call2_cst : Ref sig .tc := ⟨.hbm, 37, rfl⟩
abbrev main_call2_v0 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_cst_9 : Ref sig .tc := ⟨.hbm, 48, rfl⟩
abbrev main_call3_v0 : Ref sig .tc := ⟨.hbm, 49, rfl⟩
abbrev main_call3_v1 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_call5_v0 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_c_14 : Ref sig .tc := ⟨.hbm, 66, rfl⟩
abbrev main_v41 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v21 : BitVec 1 := Scalar.cmpi .eq arg0 c23_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S256x512x24x8_S256x98304 : S256x512x24x8.ShapeCasts S256x98304
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  transposes_S256x4096_p1_0_S4096x256 : S256x4096.Transposes [1, 0] S4096x256
  reduces_S256x4096_S256 : S256x4096.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S256_d1 : S256x256.ReducesTo [1] S256
  h_S_ : 0 < S_.numel
  bcast_S_S256 : S_.BroadcastsInDim S256 (![] : Fin 0 → Fin S256.rank)
  natLt_1_32 : 1 < 32
  reducesTo_S256_S_d0 : S256.ReducesTo [0] S_
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x98304.size a
  hwx0_0 : ∀ i : grid0.Coords, EltTy.bits .f32 = 32 ∨ (Rect.block (s := S256x98304) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S256x512x24x8 : Shape := ⟨4, ![256, 512, 24, 8]⟩
abbrev S256 : Shape := ⟨1, ![256]⟩
abbrev S_ : Shape := ⟨0, ![]⟩
abbrev S256x98304 : Shape := ⟨2, ![256, 98304]⟩
abbrev S256x1 : Shape := ⟨2, ![256, 1]⟩
abbrev S98304x256 : Shape := ⟨2, ![98304, 256]⟩
abbrev S256x256 : Shape := ⟨2, ![256, 256]⟩
abbrev S1x256 : Shape := ⟨2, ![1, 256]⟩

abbrev nBuf : Space → Nat
  | .hbm => 83
  | .vmem => 0
  | .smem => 0
  | _ => 0

abbrev bufTy : (tb : Table) → Fin (tcTables nBuf tb) → BufTy
  | .hbm, ⟨0, _⟩ => ⟨S256x512x24x8, .f32⟩
  | .hbm, ⟨1, _⟩ => ⟨S256, .i32⟩
  | .hbm, ⟨2, _⟩ => ⟨S_, .f32⟩
  | .hbm, ⟨3, _⟩ => ⟨S_, .f32⟩
  | .hbm, ⟨4, _⟩ => ⟨S256x98304, .f32⟩
  | .hbm, ⟨5, _⟩ => ⟨S256x98304, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x98304, .f32⟩
  | .hbm, ⟨15, _⟩ => ⟨S256x98304, .f32⟩
  | .hbm, ⟨16, _⟩ => ⟨S98304x256, .f32⟩
  | .hbm, ⟨17, _⟩ => ⟨S256x256, .f32⟩
  | .hbm, ⟨18, _⟩ => ⟨S256x1, .i32⟩
  | .hbm, ⟨19, _⟩ => ⟨S1x256, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S256x256, .i1⟩
  | .hbm, ⟨30, _⟩ => ⟨S256x256, .i1⟩
  | .hbm, ⟨31, _⟩ => ⟨S256x256, .i1⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256, .f32⟩
  | .hbm, ⟨40, _⟩ => ⟨S_, .i1⟩
  | .hbm, ⟨41, _⟩ => ⟨S256, .i1⟩
  | .hbm, ⟨42, _⟩ => ⟨S_, .i1⟩
  | .hbm, ⟨43, _⟩ => ⟨S256, .i1⟩
  | .hbm, ⟨44, _⟩ => ⟨S256, .i1⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S_, .i32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S256x256, .f32⟩
  | .hbm, ⟨70, _⟩ => ⟨S256x256, .f32⟩
  | .hbm, ⟨71, _⟩ => ⟨S_, .f32⟩
  | .hbm, ⟨72, _⟩ => ⟨S256, .f32⟩
  | .hbm, ⟨73, _⟩ => ⟨S256, .i1⟩
  | .hbm, ⟨74, _⟩ => ⟨S256, .i1⟩
  | .hbm, ⟨75, _⟩ => ⟨S256, .f32⟩
  | .hbm, ⟨76, _⟩ => ⟨S_, .f32⟩
  | .hbm, ⟨77, _⟩ => ⟨S_, .f32⟩
  | .hbm, ⟨78, _⟩ => ⟨S_, .i32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S_, .f32⟩
  | _, _ => ⟨S256x512x24x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_v0 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_call3_v0 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_call4_cst : Ref sig .tc := ⟨.hbm, 49, rfl⟩
abbrev main_call4_v0 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_cst_10 : Ref sig .tc := ⟨.hbm, 60, rfl⟩
abbrev main_call5_v0 : Ref sig .tc := ⟨.hbm, 61, rfl⟩
abbrev main_call5_v1 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_call7_v0 : Ref sig .tc := ⟨.hbm, 69, rfl⟩
abbrev main_v40 : Ref sig .tc := ⟨.hbm, 70, rfl⟩
abbrev main_cst_13 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_14 : Ref sig .tc := ⟨.hbm, 76, rfl⟩
abbrev main_v45 : Ref sig .tc := ⟨.hbm, 77, rfl⟩
abbrev main_c_15 : Ref sig .tc := ⟨.hbm, 78, rfl⟩
abbrev main_v46 : Ref sig .tc := ⟨.hbm, 79, rfl⟩
abbrev main_v47 : Ref sig .tc := ⟨.hbm, 80, rfl⟩
abbrev main_cst_16 : Ref sig .tc := ⟨.hbm, 81, rfl⟩
abbrev main_v48 : Ref sig .tc := ⟨.hbm, 82, rfl⟩

abbrev nD : Nat := 1
abbrev τ : Topo := Topo.v7x

variable {F : FTy → Type} [FloatOps F]

class Facts₀ : Prop where
  shapeCasts_S256x512x24x8_S256x98304 : S256x512x24x8.ShapeCasts S256x98304
  reducesTo_S256x98304_S256_d1 : S256x98304.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x98304_0_1 : S256x1.BroadcastsInDim S256x98304 (![0, 1] : Fin 2 → Fin S256x98304.rank)
  transposes_S256x98304_S98304x256_1_0 : S256x98304.Transposes [1, 0] S98304x256
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  natLt_1_32 : 1 < 32
  reducesTo_S256_S_d0 : S256.ReducesTo [0] S_
  dot_S256x98304_S98304x256_S256x256_1_0_0_1_n_n_wf : DotDims.WF S256x98304 S98304x256 S256x256 [1] [0] [0] [1] [] []

variable [Facts₀]

def dot_S256x98304_S98304x256_S256x256_1_0_0_1_n_n : DotDims S256x98304 S98304x256 S256x256 where
  lhsContracting := [1]
  rhsContracting := [0]
  lhsNonContracting := [0]
  rhsNonContracting := [1]
  lhsBatch := []
  rhsBatch := []
  wf := dot_S256x98304_S98304x256_S256x256_1_0_0_1_n_n_wf

class Facts : Prop extends Facts₀ where

variable [Facts]
-- ==== Proof.FrBaseK.lean ====
/-
  The frame of the program's one kernel region, first part: what the region's run is stated over.
  The program is three host operations (two scalar constants and the flattening of the feature
  array), the region, and sixty-five host operations after it. The region streams the 24 column
  tiles of the flattened array through one input window; it keeps two accumulators between grid
  points (the 256x256 sum of tile products and the 256x1 sum of squares), cleared at the first
  point, and stores the output block only at the last point, where alone it is written back.
  Here: the contents the region finds (the arrays after the three leading operations), the
  reduction of the whole program to the region continued by the later operations, the side
  conditions of those operations (they touch only unscoped buffers, allocate nothing, and write
  neither window's array), the input window's block at a point, the two branch conditions in
  closed form over the grid, where the output window is idle, and the region invariant's
  scratch part spelled as two owned buffers.
-/
import proofs.«125715_j54228257079749_1_alg».proof.Proof.Gen.Kernel.Launch
import proofs.«125715_j54228257079749_1_alg».proof.Proof.Gen.Kernel.Skeleton
import proofs.«125715_j54228257079749_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffer contents the region finds: the launch contents after the three leading operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The operations after the region, stretch by stretch. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- The whole program reduces to the region continued by the later operations, at the contents
    after the leading ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem tail_sub_all : (tailOps (F := F)).Forall fun ops => ops.Forall fun op => op.bufs ⊆ StableHlo.tcRefs τ sig := by
  simp only [List.Forall]
  exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩

theorem tail_fresh_all : (tailOps (F := F)).Forall fun ops => ops.Forall fun op => op.fresh = ∅ := by
  simp only [List.Forall]
  exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩

/-- The later operations touch the windows' arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub_all) ops hops)) op hop)
/-- They allocate nothing. -/
theorem sfx_fresh : ∀ ops ∈ (tailOps : List (List (HloOp τ sig (Elt F)))), ∀ op ∈ ops, op.fresh = ∅ := by
  intro ops hops op hop
  exact (List.forall_iff_forall_mem.mp ((List.forall_iff_forall_mem.mp tail_fresh_all) ops hops)) op hop

/-- A stretch none of whose operations writes either window's array (the flattened features and the score matrix). -/
abbrev Keeps (ops : List (HloOp τ sig (Elt F))) : Prop :=
  ops.Forall fun op => Proc.devRef (τ := τ) .tc main_v0 ∉ op.writes ∧ Proc.devRef (τ := τ) .tc main_v1 ∉ op.writes
theorem hostOps1_keeps : Keeps (hostOps1 : List (HloOp τ sig (Elt F))) := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps : Keeps (hostOps1_1 : List (HloOp τ sig (Elt F))) := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps : Keeps (hostOps1_2 : List (HloOp τ sig (Elt F))) := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps : Keeps (hostOps1_3 : List (HloOp τ sig (Elt F))) := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps : Keeps (hostOps1_4 : List (HloOp τ sig (Elt F))) := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps : Keeps (hostOps1_5 : List (HloOp τ sig (Elt F))) := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps : Keeps (hostOps1_6 : List (HloOp τ sig (Elt F))) := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_keeps : Keeps (hostOps1_7 : List (HloOp τ sig (Elt F))) := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_keeps : Keeps (hostOps1_8 : List (HloOp τ sig (Elt F))) := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_keeps : Keeps (hostOps1_9 : List (HloOp τ sig (Elt F))) := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_keeps : Keeps (hostOps1_10 : List (HloOp τ sig (Elt F))) := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_keeps : Keeps (hostOps1_11 : List (HloOp τ sig (Elt F))) := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_keeps : Keeps (hostOps1_12 : List (HloOp τ sig (Elt F))) := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_keeps_all : (tailOps (F := F)).Forall Keeps := by
  simp only [List.Forall]
  exact ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps⟩

/-- And write neither window's array. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := (List.forall_iff_forall_mem.mp ((List.forall_iff_forall_mem.mp tail_keeps_all) ops hops)) op hop
  fin_cases w
  · exact h.1
  · exact h.2

/-- A stretch none of whose operations writes either argument array. -/
abbrev KeepsArgs (ops : List (HloOp τ sig (Elt F))) : Prop :=
  ops.Forall fun op => Proc.devRef (τ := τ) .tc main_arg0 ∉ op.writes ∧ Proc.devRef (τ := τ) .tc main_arg1 ∉ op.writes
theorem hostOps0_keepsArgs : KeepsArgs (hostOps0 : List (HloOp τ sig (Elt F))) := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_keepsArgs : KeepsArgs (hostOps1 : List (HloOp τ sig (Elt F))) := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keepsArgs : KeepsArgs (hostOps1_1 : List (HloOp τ sig (Elt F))) := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keepsArgs : KeepsArgs (hostOps1_2 : List (HloOp τ sig (Elt F))) := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keepsArgs : KeepsArgs (hostOps1_3 : List (HloOp τ sig (Elt F))) := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keepsArgs : KeepsArgs (hostOps1_4 : List (HloOp τ sig (Elt F))) := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keepsArgs : KeepsArgs (hostOps1_5 : List (HloOp τ sig (Elt F))) := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keepsArgs : KeepsArgs (hostOps1_6 : List (HloOp τ sig (Elt F))) := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_keepsArgs : KeepsArgs (hostOps1_7 : List (HloOp τ sig (Elt F))) := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_keepsArgs : KeepsArgs (hostOps1_8 : List (HloOp τ sig (Elt F))) := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_keepsArgs : KeepsArgs (hostOps1_9 : List (HloOp τ sig (Elt F))) := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_keepsArgs : KeepsArgs (hostOps1_10 : List (HloOp τ sig (Elt F))) := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_keepsArgs : KeepsArgs (hostOps1_11 : List (HloOp τ sig (Elt F))) := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_keepsArgs : KeepsArgs (hostOps1_12 : List (HloOp τ sig (Elt F))) := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_keepsArgs_all : (tailOps (F := F)).Forall KeepsArgs := by
  simp only [List.Forall]
  exact ⟨hostOps1_keepsArgs, hostOps1_1_keepsArgs, hostOps1_2_keepsArgs, hostOps1_3_keepsArgs, hostOps1_4_keepsArgs, hostOps1_5_keepsArgs, hostOps1_6_keepsArgs, hostOps1_7_keepsArgs, hostOps1_8_keepsArgs, hostOps1_9_keepsArgs, hostOps1_10_keepsArgs, hostOps1_11_keepsArgs, hostOps1_12_keepsArgs⟩

theorem tail_keepsArgs (op : HloOp τ sig (Elt F)) (hop : op ∈ (tailOps (F := F)).flatten) :
    Proc.devRef (τ := τ) .tc main_arg0 ∉ op.writes ∧ Proc.devRef (τ := τ) .tc main_arg1 ∉ op.writes := by
  obtain ⟨ops, hops, hop⟩ := List.mem_flatten.mp hop
  exact (List.forall_iff_forall_mem.mp ((List.forall_iff_forall_mem.mp tail_keepsArgs_all) ops hops)) op hop

/-- No leading operation writes an argument array: the region finds both as launched. -/
theorem V_main_arg0 (c : Dev nD) : V m c main_arg0 = m ((c : Thread nD τ).loc main_arg0) :=
  StableHlo.after_of_forall_not_mem (b := Proc.devRef .tc main_arg0) _ _ (fun op hop => by
    rw [List.flatten_cons, List.flatten_nil, List.append_nil] at hop
    exact ((List.forall_iff_forall_mem.mp hostOps0_keepsArgs) op hop).1)
theorem V_main_arg1 (c : Dev nD) : V m c main_arg1 = m ((c : Thread nD τ).loc main_arg1) :=
  StableHlo.after_of_forall_not_mem (b := Proc.devRef .tc main_arg1) _ _ (fun op hop => by
    rw [List.flatten_cons, List.flatten_nil, List.append_nil] at hop
    exact ((List.forall_iff_forall_mem.mp hostOps0_keepsArgs) op hop).2)

/-- No later operation writes an argument array either: both end as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => (tail_keepsArgs op hop).1),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => (tail_keepsArgs op hop).2),
    Pipeline.withArrays_of_ne _ c (V0 m c) _ main_arg1 (by exact (by decide : ∀ w, Pipeline.arrRef spec0 w ≠ main_arg1))]
  exact V_main_arg1 m c

/-! ## The input window's block -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region run's -/

/-- A run to the region run's post, read at the two argument arrays (neither is a window's array:
    each is a bypassing buffer no operation writes), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch conditions -/

/-- "This is the first grid point": the condition under which the accumulators are cleared. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 24 = 0 :=
  (by decide +kernel : ∀ t : Fin grid0.N, cond0_0 (grid0.coords t) ↔ t.val % 24 = 0)

/-- "This is the last grid point": the condition under which the output block is stored. -/
abbrev cond0_1 (i : grid0.Coords) : Prop := k0_cond2 i = 1#1
theorem hcond0_1 : ∀ t : Fin cfg0.N, cond0_1 (grid0.coords t) ↔ t.val % 24 = 23 :=
  (by decide +kernel : ∀ t : Fin grid0.N, cond0_1 (grid0.coords t) ↔ t.val % 24 = 23)

/-! ## Where the windows are idle -/

theorem liveAt0_0 : ∀ t : Fin cfg0.N, cfg0.idle 0 (grid0.coords t) = false := by decide +kernel
/-- Away from the last point the output window is idle and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At the last point it is live. -/
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S256x256 .f32 := (Memref.whole cc0_stg1_0 : Memref sig .tc .vmem S256x256 .f32).view
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
/-- The two accumulators: whole scoped buffers of the kernel's own. -/
abbrev scM0_0 : Memref sig .tc .vmem S256x256 .f32 := Memref.whole cc0_scratch0
abbrev scM0_1 : Memref sig .tc .vmem S256x1 .f32 := Memref.whole cc0_scratch1
abbrev VS0_0 : View sig .tc .vmem S256x256 .f32 := scM0_0.view
abbrev VS0_1 : View sig .tc .vmem S256x1 .f32 := scM0_1.view

/-- The region invariant's scoped rest is the two accumulators, each owned at some contents,
    and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.FrRunAK.lean ====
/-
  The kernel body run once, at the first grid point (the accumulators are cleared, then added to; the output block is not stored): on whole staging memrefs, from the input tile at its
  contents, the body runs to its end without a fault, leaves the input tile as it was, and leaves
  in each buffer it stores into the list of pieces its stores wrote (found by running the body).
-/
import proofs.«125715_j54228257079749_1_alg».proof.Proof.FrBaseK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- First point: both accumulators are held at anything; each ends with its pieces written. The
    output's staging buffer is handed back untouched. -/
noncomputable def kernelRun0_A (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) :
    Σ' (LS0 : List (View.Piece (Elt F) S256x256 .f32)), { LS1 : List (View.Piece (Elt F) S256x1 .f32) //
      ∀ (xi1 : Vec F S256x256 .f32) (E : Set ℕ) (K : PUnit → sProp 𝕄),
        iprop(owns (c : Thread nD τ) arg1 fullShare x0 ∗ owns (c : Thread nD τ) arg2 fullShare xi1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0__cosine_kernel i arg1 harg1 arg2 harg2 arg3 harg3 arg4 harg4) K } := by
  refine ⟨?_, ?_, fun xi1 E K => ?run⟩
  case run =>
    simp only [cc0__cosine_kernel_eq_skeleton]; unfold cc0__cosine_kernel_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.Kernel.Fr

end
-- ==== Proof.FrRunBK.lean ====
/-
  The kernel body run once, at a grid point strictly between the first and the last (the accumulators are added to; the output block is not stored): on whole staging memrefs, from the input tile at its
  contents, the body runs to its end without a fault, leaves the input tile as it was, and leaves
  in each buffer it stores into the list of pieces its stores wrote (found by running the body).
-/
import proofs.«125715_j54228257079749_1_alg».proof.Proof.FrRunAK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle point: the accumulators are held at what the point before left; each ends with its
    pieces written. The output's staging buffer is handed back untouched. -/
noncomputable def kernelRun0_B (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) :
    Σ' (LS0 : List (View.Piece (Elt F) S256x256 .f32)), { LS1 : List (View.Piece (Elt F) S256x1 .f32) //
      ∀ (xi1 : Vec F S256x256 .f32) (E : Set ℕ) (K : PUnit → sProp 𝕄),
        iprop(owns (c : Thread nD τ) arg1 fullShare x0 ∗ owns (c : Thread nD τ) arg2 fullShare xi1 ∗ owns (c : Thread nD τ) arg3 fullShare xs0 ∗ owns (c : Thread nD τ) arg4 fullShare xs1
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0__cosine_kernel i arg1 harg1 arg2 harg2 arg3 harg3 arg4 harg4) K } := by
  refine ⟨?_, ?_, fun xi1 E K => ?run⟩
  case run =>
    simp only [cc0__cosine_kernel_eq_skeleton]; unfold cc0__cosine_kernel_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.Kernel.Fr

end
-- ==== Proof.FrRunCK.lean ====
/-
  The kernel body run once, at the last grid point (the accumulators are added to, then the quotient by the outer product of the clamped norms is stored into the output block): on whole staging memrefs, from the input tile at its
  contents, the body runs to its end without a fault, leaves the input tile as it was, and leaves
  in each buffer it stores into the list of pieces its stores wrote (found by running the body).
-/
import proofs.«125715_j54228257079749_1_alg».proof.Proof.FrRunBK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Last point: the accumulators are held at what the point before left, the output's staging
    buffer at anything; each of the three ends with its pieces written. -/
noncomputable def kernelRun0_C (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) :
    Σ' (L1 : List (View.Piece (Elt F) S256x256 .f32)) (LS0 : List (View.Piece (Elt F) S256x256 .f32)), { LS1 : List (View.Piece (Elt F) S256x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0 ∗ owns (c : Thread nD τ) arg4 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0__cosine_kernel i arg1 harg1 arg2 harg2 arg3 harg3 arg4 harg4) K } := by
  refine ⟨?_, ?_, ?_, fun E K => ?run⟩
  case run =>
    simp only [cc0__cosine_kernel_eq_skeleton]; unfold cc0__cosine_kernel_skel
    unfold owns
    iintro ⟨⟨%f0, %hf0, H0⟩, ⟨%d1, %f1, -, H1⟩, ⟨%fs0, %hfs0, HS0⟩, ⟨%fs1, %hfs1, HS1⟩, Hk⟩
    obtain rfl := harg1.eq_unread hf0; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [HS0]; · iexists _; iexact HS0
    iexists _; iexact HS1

end Cert.Kernel.Fr

end
-- ==== Proof.FrameK.lean ====
/-
  The frame of the program's one kernel region, last part. What the two accumulators and the
  output's staging buffer hold after each grid point, by recursion on the point: the first point
  clears the accumulators and adds the first tile's contribution, every later point adds its
  tile's contribution to what the point before left, and the last point also stores the output
  block. The region invariant carries the two accumulators at those contents from point to point.
  Then the proof data of the pipeline, the body obligation at a generic point (a case split on
  the two closed-form conditions), the run of the whole program, and the frame: it terminates
  without a fault and leaves both argument arrays unchanged.
-/
import proofs.«125715_j54228257079749_1_alg».proof.Proof.FrRunCK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Away from the last point the body stores nothing into the output's staging buffer: a
    placeholder that nothing consults (there the window is neither written back nor read). -/
def out0_idle : Vec F S256x256 .f32 := VO0_1.read (Elt F) (VO0_1.writes (Elt F) VO0_1.junk [])

/-- The pieces stored into the product accumulator cover it. -/
theorem scover0_A_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) (y : S256x256.Idx) :
    ∃ pc ∈ (kernelRun0_A c i arg1 harg1 arg2 harg2 arg3 harg3 arg4 harg4 hc0 hc1 x0).1, y ∈ pc.1.set :=
  View.cover_of_tiledL (kernelRun0_A c i arg1 harg1 arg2 harg2 arg3 harg3 arg4 harg4 hc0 hc1 x0).1 S256x256.size (by sl_kernel_rfl) y
/-- What this case leaves in the product accumulator: its pieces read back. -/
def sout0_A_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) : Vec F S256x256 .f32 :=
  VS0_0.read (Elt F) (VS0_0.writes (Elt F) VS0_0.junk (kernelRun0_A c i arg1 harg1 arg2 harg2 arg3 harg3 arg4 harg4 hc0 hc1 x0).1)
/-- The pieces stored into the sum-of-squares accumulator cover it. -/
theorem scover0_A_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) (y : S256x1.Idx) :
    ∃ pc ∈ (kernelRun0_A c i arg1 harg1 arg2 harg2 arg3 harg3 arg4 harg4 hc0 hc1 x0).2.1, y ∈ pc.1.set :=
  View.cover_of_tiledL (kernelRun0_A c i arg1 harg1 arg2 harg2 arg3 harg3 arg4 harg4 hc0 hc1 x0).2.1 S256x1.size (by sl_kernel_rfl) y
/-- What this case leaves in the sum-of-squares accumulator: its pieces read back. -/
def sout0_A_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) : Vec F S256x1 .f32 :=
  VS0_1.read (Elt F) (VS0_1.writes (Elt F) VS0_1.junk (kernelRun0_A c i arg1 harg1 arg2 harg2 arg3 harg3 arg4 harg4 hc0 hc1 x0).2.1)

/-- The pieces stored into the product accumulator cover it. -/
theorem scover0_B_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) (y : S256x256.Idx) :
    ∃ pc ∈ (kernelRun0_B c i arg1 harg1 arg2 harg2 arg3 harg3 arg4 harg4 hc0 hc1 x0 xs0 xs1).1, y ∈ pc.1.set :=
  View.cover_of_tiledL (kernelRun0_B c i arg1 harg1 arg2 harg2 arg3 harg3 arg4 harg4 hc0 hc1 x0 xs0 xs1).1 S256x256.size (by sl_kernel_rfl) y
/-- What this case leaves in the product accumulator: its pieces read back. -/
def sout0_B_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) : Vec F S256x256 .f32 :=
  VS0_0.read (Elt F) (VS0_0.writes (Elt F) VS0_0.junk (kernelRun0_B c i arg1 harg1 arg2 harg2 arg3 harg3 arg4 harg4 hc0 hc1 x0 xs0 xs1).1)
/-- The pieces stored into the sum-of-squares accumulator cover it. -/
theorem scover0_B_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) (y : S256x1.Idx) :
    ∃ pc ∈ (kernelRun0_B c i arg1 harg1 arg2 harg2 arg3 harg3 arg4 harg4 hc0 hc1 x0 xs0 xs1).2.1, y ∈ pc.1.set :=
  View.cover_of_tiledL (kernelRun0_B c i arg1 harg1 arg2 harg2 arg3 harg3 arg4 harg4 hc0 hc1 x0 xs0 xs1).2.1 S256x1.size (by sl_kernel_rfl) y
/-- What this case leaves in the sum-of-squares accumulator: its pieces read back. -/
def sout0_B_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) : Vec F S256x1 .f32 :=
  VS0_1.read (Elt F) (VS0_1.writes (Elt F) VS0_1.junk (kernelRun0_B c i arg1 harg1 arg2 harg2 arg3 harg3 arg4 harg4 hc0 hc1 x0 xs0 xs1).2.1)

/-- The last point's one store into the output's staging buffer covers it. -/
theorem cover0_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) (y : S256x256.Idx) :
    ∃ pc ∈ (kernelRun0_C c i arg1 harg1 arg2 harg2 arg3 harg3 arg4 harg4 hc0 hc1 x0 xs0 xs1).1, y ∈ pc.1.set :=
  View.cover_of_tiledL (kernelRun0_C c i arg1 harg1 arg2 harg2 arg3 harg3 arg4 harg4 hc0 hc1 x0 xs0 xs1).1 S256x256.size (by sl_kernel_rfl) y
/-- What the last point leaves in the output's staging buffer: its pieces read back. -/
def out0_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) : Vec F S256x256 .f32 :=
  VO0_1.read (Elt F) (VO0_1.writes (Elt F) VO0_1.junk (kernelRun0_C c i arg1 harg1 arg2 harg2 arg3 harg3 arg4 harg4 hc0 hc1 x0 xs0 xs1).1)

/-- The pieces stored into the product accumulator cover it. -/
theorem scover0_C_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) (y : S256x256.Idx) :
    ∃ pc ∈ (kernelRun0_C c i arg1 harg1 arg2 harg2 arg3 harg3 arg4 harg4 hc0 hc1 x0 xs0 xs1).2.1, y ∈ pc.1.set :=
  View.cover_of_tiledL (kernelRun0_C c i arg1 harg1 arg2 harg2 arg3 harg3 arg4 harg4 hc0 hc1 x0 xs0 xs1).2.1 S256x256.size (by sl_kernel_rfl) y
/-- What this case leaves in the product accumulator: its pieces read back. -/
def sout0_C_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) : Vec F S256x256 .f32 :=
  VS0_0.read (Elt F) (VS0_0.writes (Elt F) VS0_0.junk (kernelRun0_C c i arg1 harg1 arg2 harg2 arg3 harg3 arg4 harg4 hc0 hc1 x0 xs0 xs1).2.1)
/-- The pieces stored into the sum-of-squares accumulator cover it. -/
theorem scover0_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) (y : S256x1.Idx) :
    ∃ pc ∈ (kernelRun0_C c i arg1 harg1 arg2 harg2 arg3 harg3 arg4 harg4 hc0 hc1 x0 xs0 xs1).2.2.1, y ∈ pc.1.set :=
  View.cover_of_tiledL (kernelRun0_C c i arg1 harg1 arg2 harg2 arg3 harg3 arg4 harg4 hc0 hc1 x0 xs0 xs1).2.2.1 S256x1.size (by sl_kernel_rfl) y
/-- What this case leaves in the sum-of-squares accumulator: its pieces read back. -/
def sout0_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) : Vec F S256x1 .f32 :=
  VS0_1.read (Elt F) (VS0_1.writes (Elt F) VS0_1.junk (kernelRun0_C c i arg1 harg1 arg2 harg2 arg3 harg3 arg4 harg4 hc0 hc1 x0 xs0 xs1).2.2.1)

/-! ## What the buffers hold after each point -/

/-- After the body at position n: (the output's staging buffer, the product accumulator, the
    sum-of-squares accumulator). -/
def outsAt0 (c : Dev nD) : (n : ℕ) → n < cfg0.N → Vec F S256x256 .f32 × Vec F S256x256 .f32 × Vec F S256x1 .f32
  | 0, hn => (out0_idle,
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩),
      sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 24 = 0 then
      False.elim (by have hN : n + 1 < 24 := lt_of_lt_of_eq hn (show cfg0.N = 24 from N_0); omega)
    else
      if h1 : (n + 1) % 24 = 23 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2)
      else
        (out0_idle,
         sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2)

/-- At the first point. -/
theorem outsAt0_A (c : Dev nD) (t : Fin cfg0.N) (h0 : t.val % 24 = 0) (h1 : ¬t.val % 24 = 23) :
    outsAt0 m c t.val t.isLt = (out0_idle,
      sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t),
      sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)) := by
  obtain ⟨n, hn⟩ := t
  cases n with
  | zero => exact rfl
  | succ n => exact (by exfalso; have hN : n + 1 < 24 := lt_of_lt_of_eq hn (show cfg0.N = 24 from N_0); (try dsimp only at h0); omega)

/-- At a middle point: over what the point before left. -/
theorem outsAt0_B (c : Dev nD) (t : Fin cfg0.N) (h0 : ¬t.val % 24 = 0) (h1 : ¬t.val % 24 = 23) :
    outsAt0 m c t.val t.isLt = (out0_idle,
      sout0_B_0 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the last point: over what the point before left. -/
theorem outsAt0_C (c : Dev nD) (t : Fin cfg0.N) (h0 : ¬t.val % 24 = 0) (h1 : t.val % 24 = 23) :
    outsAt0 m c t.val t.isLt = (
      out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the scoped rest at anything;
    afterwards the two accumulators at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point t the input's buffer at its
    block and the output's at the recursion's first component; the invariant above; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the closed forms say which case the point is in; that case's run
    applies; the invariant hands over the accumulators at what the point before left (at anything
    at the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 24 := lt_of_lt_of_eq t.isLt (show cfg0.N = 24 from N_0)
  rw [show (dats m 0 c).leavesExact 0 t = owns (c : Thread nD τ) (ms0_0 t) fullShare ((dats m 0 c).after 0 t) from by
    unfold Dat.leavesExact; rw [liveAt0_0 t], after0_0]
  by_cases h0 : t.val % 24 = 0
  · have h1 : ¬t.val % 24 = 23 := by omega
    have hz : t.val = 0 := by omega
    rw [Dat.leavesExact_idle (dats m 0 c) 1 t (idleAt0_1 t (fun h => h1 ((hcond0_1 t).mp h))) (noFlush0_1 t (fun h => h1 ((hcond0_1 t).mp h)))]
    rw [outsAt0_A m c t h0 h1]
    unfold sout0_A_0 sout0_A_1; (try dsimp only)
    rw [PhiS_castSucc m c t, PhiS_zero m c _ _ hz, PhiA0_eq]
    iintro ⟨⟨⟨HS0, HS1⟩, Hg⟩, Ho, ⟨%d0, H0⟩, ⟨%d1, H1⟩⟩
    iapply ((kernelRun0_A c (grid0.coords t) _ _ _ _ _ _ _ _ ((hcond0_0 t).mpr h0) (fun h => h1 ((hcond0_1 t).mp h)) (iblk m c 0 t)).2.2 _ Set.univ _)
    isplitl [H0]; · iexact H0
    isplitl [H1]; · iexact H1
    isplitl [HS0]; · iexact HS0
    isplitl [HS1]; · iexact HS1
    iintro ⟨H0, H1, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _)
        · unfold owns; iexists _; isplitr
          swap; · iexact HS1
          ipureintro; exact View.read_writes_of_cover _ _ _ _ _ (scover0_A_1 c _ _ _ _ _ _ _ _ _ _ _ _)
      iexact Hg
    isplitl [Ho]; · iexact Ho
    isplitl [H0]; · iexact H0
    iexists _; iexact H1
  · have hz : t.val ≠ 0 := by omega
    by_cases h1 : t.val % 24 = 23
    · rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold out0_C_1 sout0_C_0 sout0_C_1; (try dsimp only)
      rw [PhiS_castSucc m c t, PhiS_pos m c _ _ hz]
      iintro ⟨⟨⟨HS0, HS1⟩, Hg⟩, Ho, ⟨%d0, H0⟩, ⟨%d1, H1⟩⟩
      iapply ((kernelRun0_C c (grid0.coords t) _ _ _ _ _ _ _ _ (fun h => h0 ((hcond0_0 t).mp h)) ((hcond0_1 t).mpr h1) (iblk m c 0 t) _ _).2.2.2 Set.univ _)
      isplitl [H0]; · iexact H0
      isplitl [H1]; · iexists _; iexact H1
      isplitl [HS0]; · iexact HS0
      isplitl [HS1]; · iexact HS1
      iintro ⟨H0, ⟨%e1, H1⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _ _ _ _)
    · rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩⟩
      iapply ((kernelRun0_B c (grid0.coords t) _ _ _ _ _ _ _ _ (fun h => h0 ((hcond0_0 t).mp h)) (fun h => h1 ((hcond0_1 t).mp h)) (iblk m c 0 t) _ _).2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the accumulators'
    named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 24 := N_0; omega)

/-! ## The run and the frame -/

set_option backward.isDefEq.respectTransparency.types false in
/-- Every weakly fair execution of the program terminates without a fault; at the end each
    window's array holds what the library computes from the proof data and every other unscoped
    buffer what the later operations leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to its end, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.FrBaseI.lean ====
/-
  The frame of the program's one kernel region, first part: what the region's run is stated over.
  The program is three host operations (two scalar constants and the flattening of the feature
  array), the region, and sixty-five host operations after it. The region streams the 24 column
  tiles of the flattened array through one input window; it keeps two accumulators between grid
  points (the 256x256 sum of tile products and the 256x1 sum of squares), cleared at the first
  point, and stores the output block only at the last point, where alone it is written back.
  Here: the contents the region finds (the arrays after the three leading operations), the
  reduction of the whole program to the region continued by the later operations, the side
  conditions of those operations (they touch only unscoped buffers, allocate nothing, and write
  neither window's array), the input window's block at a point, the two branch conditions in
  closed form over the grid, where the output window is idle, and the region invariant's
  scratch part spelled as two owned buffers.
-/
import proofs.«125715_j54228257079749_1_alg».proof.Proof.Gen.KernelIdeal.Launch
import proofs.«125715_j54228257079749_1_alg».proof.Proof.Gen.KernelIdeal.Skeleton
import proofs.«125715_j54228257079749_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffer contents the region finds: the launch contents after the three leading operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The operations after the region, stretch by stretch. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- The whole program reduces to the region continued by the later operations, at the contents
    after the leading ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem tail_sub_all : (tailOps (F := F)).Forall fun ops => ops.Forall fun op => op.bufs ⊆ StableHlo.tcRefs τ sig := by
  simp only [List.Forall]
  exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩

theorem tail_fresh_all : (tailOps (F := F)).Forall fun ops => ops.Forall fun op => op.fresh = ∅ := by
  simp only [List.Forall]
  exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩

/-- The later operations touch the windows' arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub_all) ops hops)) op hop)
/-- They allocate nothing. -/
theorem sfx_fresh : ∀ ops ∈ (tailOps : List (List (HloOp τ sig (Elt F)))), ∀ op ∈ ops, op.fresh = ∅ := by
  intro ops hops op hop
  exact (List.forall_iff_forall_mem.mp ((List.forall_iff_forall_mem.mp tail_fresh_all) ops hops)) op hop

/-- A stretch none of whose operations writes either window's array (the flattened features and the score matrix). -/
abbrev Keeps (ops : List (HloOp τ sig (Elt F))) : Prop :=
  ops.Forall fun op => Proc.devRef (τ := τ) .tc main_v0 ∉ op.writes ∧ Proc.devRef (τ := τ) .tc main_v1 ∉ op.writes
theorem hostOps1_keeps : Keeps (hostOps1 : List (HloOp τ sig (Elt F))) := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps : Keeps (hostOps1_1 : List (HloOp τ sig (Elt F))) := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps : Keeps (hostOps1_2 : List (HloOp τ sig (Elt F))) := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps : Keeps (hostOps1_3 : List (HloOp τ sig (Elt F))) := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps : Keeps (hostOps1_4 : List (HloOp τ sig (Elt F))) := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps : Keeps (hostOps1_5 : List (HloOp τ sig (Elt F))) := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps : Keeps (hostOps1_6 : List (HloOp τ sig (Elt F))) := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_keeps : Keeps (hostOps1_7 : List (HloOp τ sig (Elt F))) := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_keeps : Keeps (hostOps1_8 : List (HloOp τ sig (Elt F))) := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_keeps : Keeps (hostOps1_9 : List (HloOp τ sig (Elt F))) := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_keeps : Keeps (hostOps1_10 : List (HloOp τ sig (Elt F))) := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_keeps : Keeps (hostOps1_11 : List (HloOp τ sig (Elt F))) := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_keeps : Keeps (hostOps1_12 : List (HloOp τ sig (Elt F))) := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_keeps_all : (tailOps (F := F)).Forall Keeps := by
  simp only [List.Forall]
  exact ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps⟩

/-- And write neither window's array. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := (List.forall_iff_forall_mem.mp ((List.forall_iff_forall_mem.mp tail_keeps_all) ops hops)) op hop
  fin_cases w
  · exact h.1
  · exact h.2

/-- A stretch none of whose operations writes either argument array. -/
abbrev KeepsArgs (ops : List (HloOp τ sig (Elt F))) : Prop :=
  ops.Forall fun op => Proc.devRef (τ := τ) .tc main_arg0 ∉ op.writes ∧ Proc.devRef (τ := τ) .tc main_arg1 ∉ op.writes
theorem hostOps0_keepsArgs : KeepsArgs (hostOps0 : List (HloOp τ sig (Elt F))) := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_keepsArgs : KeepsArgs (hostOps1 : List (HloOp τ sig (Elt F))) := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keepsArgs : KeepsArgs (hostOps1_1 : List (HloOp τ sig (Elt F))) := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keepsArgs : KeepsArgs (hostOps1_2 : List (HloOp τ sig (Elt F))) := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keepsArgs : KeepsArgs (hostOps1_3 : List (HloOp τ sig (Elt F))) := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keepsArgs : KeepsArgs (hostOps1_4 : List (HloOp τ sig (Elt F))) := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keepsArgs : KeepsArgs (hostOps1_5 : List (HloOp τ sig (Elt F))) := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keepsArgs : KeepsArgs (hostOps1_6 : List (HloOp τ sig (Elt F))) := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_keepsArgs : KeepsArgs (hostOps1_7 : List (HloOp τ sig (Elt F))) := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_keepsArgs : KeepsArgs (hostOps1_8 : List (HloOp τ sig (Elt F))) := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_keepsArgs : KeepsArgs (hostOps1_9 : List (HloOp τ sig (Elt F))) := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_keepsArgs : KeepsArgs (hostOps1_10 : List (HloOp τ sig (Elt F))) := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_keepsArgs : KeepsArgs (hostOps1_11 : List (HloOp τ sig (Elt F))) := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_keepsArgs : KeepsArgs (hostOps1_12 : List (HloOp τ sig (Elt F))) := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_keepsArgs_all : (tailOps (F := F)).Forall KeepsArgs := by
  simp only [List.Forall]
  exact ⟨hostOps1_keepsArgs, hostOps1_1_keepsArgs, hostOps1_2_keepsArgs, hostOps1_3_keepsArgs, hostOps1_4_keepsArgs, hostOps1_5_keepsArgs, hostOps1_6_keepsArgs, hostOps1_7_keepsArgs, hostOps1_8_keepsArgs, hostOps1_9_keepsArgs, hostOps1_10_keepsArgs, hostOps1_11_keepsArgs, hostOps1_12_keepsArgs⟩

theorem tail_keepsArgs (op : HloOp τ sig (Elt F)) (hop : op ∈ (tailOps (F := F)).flatten) :
    Proc.devRef (τ := τ) .tc main_arg0 ∉ op.writes ∧ Proc.devRef (τ := τ) .tc main_arg1 ∉ op.writes := by
  obtain ⟨ops, hops, hop⟩ := List.mem_flatten.mp hop
  exact (List.forall_iff_forall_mem.mp ((List.forall_iff_forall_mem.mp tail_keepsArgs_all) ops hops)) op hop

/-- No leading operation writes an argument array: the region finds both as launched. -/
theorem V_main_arg0 (c : Dev nD) : V m c main_arg0 = m ((c : Thread nD τ).loc main_arg0) :=
  StableHlo.after_of_forall_not_mem (b := Proc.devRef .tc main_arg0) _ _ (fun op hop => by
    rw [List.flatten_cons, List.flatten_nil, List.append_nil] at hop
    exact ((List.forall_iff_forall_mem.mp hostOps0_keepsArgs) op hop).1)
theorem V_main_arg1 (c : Dev nD) : V m c main_arg1 = m ((c : Thread nD τ).loc main_arg1) :=
  StableHlo.after_of_forall_not_mem (b := Proc.devRef .tc main_arg1) _ _ (fun op hop => by
    rw [List.flatten_cons, List.flatten_nil, List.append_nil] at hop
    exact ((List.forall_iff_forall_mem.mp hostOps0_keepsArgs) op hop).2)

/-- No later operation writes an argument array either: both end as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => (tail_keepsArgs op hop).1),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => (tail_keepsArgs op hop).2),
    Pipeline.withArrays_of_ne _ c (V0 m c) _ main_arg1 (by exact (by decide : ∀ w, Pipeline.arrRef spec0 w ≠ main_arg1))]
  exact V_main_arg1 m c

/-! ## The input window's block -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region run's -/

/-- A run to the region run's post, read at the two argument arrays (neither is a window's array:
    each is a bypassing buffer no operation writes), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch conditions -/

/-- "This is the first grid point": the condition under which the accumulators are cleared. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 24 = 0 :=
  (by decide +kernel : ∀ t : Fin grid0.N, cond0_0 (grid0.coords t) ↔ t.val % 24 = 0)

/-- "This is the last grid point": the condition under which the output block is stored. -/
abbrev cond0_1 (i : grid0.Coords) : Prop := k0_cond2 i = 1#1
theorem hcond0_1 : ∀ t : Fin cfg0.N, cond0_1 (grid0.coords t) ↔ t.val % 24 = 23 :=
  (by decide +kernel : ∀ t : Fin grid0.N, cond0_1 (grid0.coords t) ↔ t.val % 24 = 23)

/-! ## Where the windows are idle -/

theorem liveAt0_0 : ∀ t : Fin cfg0.N, cfg0.idle 0 (grid0.coords t) = false := by decide +kernel
/-- Away from the last point the output window is idle and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At the last point it is live. -/
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S256x256 .f32 := (Memref.whole cc0_stg1_0 : Memref sig .tc .vmem S256x256 .f32).view
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
/-- The two accumulators: whole scoped buffers of the kernel's own. -/
abbrev scM0_0 : Memref sig .tc .vmem S256x256 .f32 := Memref.whole cc0_scratch0
abbrev scM0_1 : Memref sig .tc .vmem S256x1 .f32 := Memref.whole cc0_scratch1
abbrev VS0_0 : View sig .tc .vmem S256x256 .f32 := scM0_0.view
abbrev VS0_1 : View sig .tc .vmem S256x1 .f32 := scM0_1.view

/-- The region invariant's scoped rest is the two accumulators, each owned at some contents,
    and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.FrRunAI.lean ====
/-
  The kernel body run once, at the first grid point (the accumulators are cleared, then added to; the output block is not stored): on whole staging memrefs, from the input tile at its
  contents, the body runs to its end without a fault, leaves the input tile as it was, and leaves
  in each buffer it stores into the list of pieces its stores wrote (found by running the body).
-/
import proofs.«125715_j54228257079749_1_alg».proof.Proof.FrBaseI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- First point: both accumulators are held at anything; each ends with its pieces written. The
    output's staging buffer is handed back untouched. -/
noncomputable def kernelRun0_A (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) :
    Σ' (LS0 : List (View.Piece (Elt F) S256x256 .f32)), { LS1 : List (View.Piece (Elt F) S256x1 .f32) //
      ∀ (xi1 : Vec F S256x256 .f32) (E : Set ℕ) (K : PUnit → sProp 𝕄),
        iprop(owns (c : Thread nD τ) arg1 fullShare x0 ∗ owns (c : Thread nD τ) arg2 fullShare xi1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0__cosine_kernel i arg1 harg1 arg2 harg2 arg3 harg3 arg4 harg4) K } := by
  refine ⟨?_, ?_, fun xi1 E K => ?run⟩
  case run =>
    simp only [cc0__cosine_kernel_eq_skeleton]; unfold cc0__cosine_kernel_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.KernelIdeal.Fr

end
-- ==== Proof.FrRunBI.lean ====
/-
  The kernel body run once, at a grid point strictly between the first and the last (the accumulators are added to; the output block is not stored): on whole staging memrefs, from the input tile at its
  contents, the body runs to its end without a fault, leaves the input tile as it was, and leaves
  in each buffer it stores into the list of pieces its stores wrote (found by running the body).
-/
import proofs.«125715_j54228257079749_1_alg».proof.Proof.FrRunAI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle point: the accumulators are held at what the point before left; each ends with its
    pieces written. The output's staging buffer is handed back untouched. -/
noncomputable def kernelRun0_B (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) :
    Σ' (LS0 : List (View.Piece (Elt F) S256x256 .f32)), { LS1 : List (View.Piece (Elt F) S256x1 .f32) //
      ∀ (xi1 : Vec F S256x256 .f32) (E : Set ℕ) (K : PUnit → sProp 𝕄),
        iprop(owns (c : Thread nD τ) arg1 fullShare x0 ∗ owns (c : Thread nD τ) arg2 fullShare xi1 ∗ owns (c : Thread nD τ) arg3 fullShare xs0 ∗ owns (c : Thread nD τ) arg4 fullShare xs1
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0__cosine_kernel i arg1 harg1 arg2 harg2 arg3 harg3 arg4 harg4) K } := by
  refine ⟨?_, ?_, fun xi1 E K => ?run⟩
  case run =>
    simp only [cc0__cosine_kernel_eq_skeleton]; unfold cc0__cosine_kernel_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.KernelIdeal.Fr

end
-- ==== Proof.FrRunCI.lean ====
/-
  The kernel body run once, at the last grid point (the accumulators are added to, then the quotient by the outer product of the clamped norms is stored into the output block): on whole staging memrefs, from the input tile at its
  contents, the body runs to its end without a fault, leaves the input tile as it was, and leaves
  in each buffer it stores into the list of pieces its stores wrote (found by running the body).
-/
import proofs.«125715_j54228257079749_1_alg».proof.Proof.FrRunBI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Last point: the accumulators are held at what the point before left, the output's staging
    buffer at anything; each of the three ends with its pieces written. -/
noncomputable def kernelRun0_C (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) :
    Σ' (L1 : List (View.Piece (Elt F) S256x256 .f32)) (LS0 : List (View.Piece (Elt F) S256x256 .f32)), { LS1 : List (View.Piece (Elt F) S256x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0 ∗ owns (c : Thread nD τ) arg4 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0) ∗ (∃ f, arg4.view.loc (c : Thread nD τ) ↦[arg4.view.set]{fullShare} arg4.view.writes (Elt F) f LS1)) -∗ K ⟨⟩))
          ⊢ wp frame (wpE (defs₀ (F := F)) Variants.none c none) E (cc0__cosine_kernel i arg1 harg1 arg2 harg2 arg3 harg3 arg4 harg4) K } := by
  refine ⟨?_, ?_, ?_, fun E K => ?run⟩
  case run =>
    simp only [cc0__cosine_kernel_eq_skeleton]; unfold cc0__cosine_kernel_skel
    unfold owns
    iintro ⟨⟨%f0, %hf0, H0⟩, ⟨%d1, %f1, -, H1⟩, ⟨%fs0, %hfs0, HS0⟩, ⟨%fs1, %hfs1, HS1⟩, Hk⟩
    obtain rfl := harg1.eq_unread hf0; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [HS0]; · iexists _; iexact HS0
    iexists _; iexact HS1

end Cert.KernelIdeal.Fr

end
-- ==== Proof.FrameI.lean ====
/-
  The frame of the program's one kernel region, last part. What the two accumulators and the
  output's staging buffer hold after each grid point, by recursion on the point: the first point
  clears the accumulators and adds the first tile's contribution, every later point adds its
  tile's contribution to what the point before left, and the last point also stores the output
  block. The region invariant carries the two accumulators at those contents from point to point.
  Then the proof data of the pipeline, the body obligation at a generic point (a case split on
  the two closed-form conditions), the run of the whole program, and the frame: it terminates
  without a fault and leaves both argument arrays unchanged.
-/
import proofs.«125715_j54228257079749_1_alg».proof.Proof.FrRunCI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Away from the last point the body stores nothing into the output's staging buffer: a
    placeholder that nothing consults (there the window is neither written back nor read). -/
def out0_idle : Vec F S256x256 .f32 := VO0_1.read (Elt F) (VO0_1.writes (Elt F) VO0_1.junk [])

/-- The pieces stored into the product accumulator cover it. -/
theorem scover0_A_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) (y : S256x256.Idx) :
    ∃ pc ∈ (kernelRun0_A c i arg1 harg1 arg2 harg2 arg3 harg3 arg4 harg4 hc0 hc1 x0).1, y ∈ pc.1.set :=
  View.cover_of_tiledL (kernelRun0_A c i arg1 harg1 arg2 harg2 arg3 harg3 arg4 harg4 hc0 hc1 x0).1 S256x256.size (by sl_kernel_rfl) y
/-- What this case leaves in the product accumulator: its pieces read back. -/
def sout0_A_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) : Vec F S256x256 .f32 :=
  VS0_0.read (Elt F) (VS0_0.writes (Elt F) VS0_0.junk (kernelRun0_A c i arg1 harg1 arg2 harg2 arg3 harg3 arg4 harg4 hc0 hc1 x0).1)
/-- The pieces stored into the sum-of-squares accumulator cover it. -/
theorem scover0_A_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) (y : S256x1.Idx) :
    ∃ pc ∈ (kernelRun0_A c i arg1 harg1 arg2 harg2 arg3 harg3 arg4 harg4 hc0 hc1 x0).2.1, y ∈ pc.1.set :=
  View.cover_of_tiledL (kernelRun0_A c i arg1 harg1 arg2 harg2 arg3 harg3 arg4 harg4 hc0 hc1 x0).2.1 S256x1.size (by sl_kernel_rfl) y
/-- What this case leaves in the sum-of-squares accumulator: its pieces read back. -/
def sout0_A_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i)
    (x0 : Vec F S256x4096 .f32) : Vec F S256x1 .f32 :=
  VS0_1.read (Elt F) (VS0_1.writes (Elt F) VS0_1.junk (kernelRun0_A c i arg1 harg1 arg2 harg2 arg3 harg3 arg4 harg4 hc0 hc1 x0).2.1)

/-- The pieces stored into the product accumulator cover it. -/
theorem scover0_B_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) (y : S256x256.Idx) :
    ∃ pc ∈ (kernelRun0_B c i arg1 harg1 arg2 harg2 arg3 harg3 arg4 harg4 hc0 hc1 x0 xs0 xs1).1, y ∈ pc.1.set :=
  View.cover_of_tiledL (kernelRun0_B c i arg1 harg1 arg2 harg2 arg3 harg3 arg4 harg4 hc0 hc1 x0 xs0 xs1).1 S256x256.size (by sl_kernel_rfl) y
/-- What this case leaves in the product accumulator: its pieces read back. -/
def sout0_B_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) : Vec F S256x256 .f32 :=
  VS0_0.read (Elt F) (VS0_0.writes (Elt F) VS0_0.junk (kernelRun0_B c i arg1 harg1 arg2 harg2 arg3 harg3 arg4 harg4 hc0 hc1 x0 xs0 xs1).1)
/-- The pieces stored into the sum-of-squares accumulator cover it. -/
theorem scover0_B_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) (y : S256x1.Idx) :
    ∃ pc ∈ (kernelRun0_B c i arg1 harg1 arg2 harg2 arg3 harg3 arg4 harg4 hc0 hc1 x0 xs0 xs1).2.1, y ∈ pc.1.set :=
  View.cover_of_tiledL (kernelRun0_B c i arg1 harg1 arg2 harg2 arg3 harg3 arg4 harg4 hc0 hc1 x0 xs0 xs1).2.1 S256x1.size (by sl_kernel_rfl) y
/-- What this case leaves in the sum-of-squares accumulator: its pieces read back. -/
def sout0_B_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i)
    (x0 : Vec F S256x4096 .f32) (xs0 : Vec F S256x256 .f32) (xs1 : Vec F S256x1 .f32) : Vec F S256x1 .f32 :=
  VS0_1.read (Elt F) (VS0_1.writes (Elt F) VS0_1.junk (kernelRun0_B c i arg1 harg1 arg2 harg2 arg3 harg3 arg4 harg4 hc0 hc1 x0 xs0 xs1).2.1)

/-- The last point's one store into the output's staging buffer covers it. -/
theorem cover0_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) (y : S256x256.Idx) :
    ∃ pc ∈ (kernelRun0_C c i arg1 harg1 arg2 harg2 arg3 harg3 arg4 harg4 hc0 hc1 x0 xs0 xs1).1, y ∈ pc.1.set :=
  View.cover_of_tiledL (kernelRun0_C c i arg1 harg1 arg2 harg2 arg3 harg3 arg4 harg4 hc0 hc1 x0 xs0 xs1).1 S256x256.size (by sl_kernel_rfl) y
/-- What the last point leaves in the output's staging buffer: its pieces read back. -/
def out0_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) : Vec F S256x256 .f32 :=
  VO0_1.read (Elt F) (VO0_1.writes (Elt F) VO0_1.junk (kernelRun0_C c i arg1 harg1 arg2 harg2 arg3 harg3 arg4 harg4 hc0 hc1 x0 xs0 xs1).1)

/-- The pieces stored into the product accumulator cover it. -/
theorem scover0_C_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) (y : S256x256.Idx) :
    ∃ pc ∈ (kernelRun0_C c i arg1 harg1 arg2 harg2 arg3 harg3 arg4 harg4 hc0 hc1 x0 xs0 xs1).2.1, y ∈ pc.1.set :=
  View.cover_of_tiledL (kernelRun0_C c i arg1 harg1 arg2 harg2 arg3 harg3 arg4 harg4 hc0 hc1 x0 xs0 xs1).2.1 S256x256.size (by sl_kernel_rfl) y
/-- What this case leaves in the product accumulator: its pieces read back. -/
def sout0_C_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) : Vec F S256x256 .f32 :=
  VS0_0.read (Elt F) (VS0_0.writes (Elt F) VS0_0.junk (kernelRun0_C c i arg1 harg1 arg2 harg2 arg3 harg3 arg4 harg4 hc0 hc1 x0 xs0 xs1).2.1)
/-- The pieces stored into the sum-of-squares accumulator cover it. -/
theorem scover0_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) (y : S256x1.Idx) :
    ∃ pc ∈ (kernelRun0_C c i arg1 harg1 arg2 harg2 arg3 harg3 arg4 harg4 hc0 hc1 x0 xs0 xs1).2.2.1, y ∈ pc.1.set :=
  View.cover_of_tiledL (kernelRun0_C c i arg1 harg1 arg2 harg2 arg3 harg3 arg4 harg4 hc0 hc1 x0 xs0 xs1).2.2.1 S256x1.size (by sl_kernel_rfl) y
/-- What this case leaves in the sum-of-squares accumulator: its pieces read back. -/
def sout0_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i)
    (x0 : Vec F S256x4096 .f32) (xs0 : Vec F S256x256 .f32) (xs1 : Vec F S256x1 .f32) : Vec F S256x1 .f32 :=
  VS0_1.read (Elt F) (VS0_1.writes (Elt F) VS0_1.junk (kernelRun0_C c i arg1 harg1 arg2 harg2 arg3 harg3 arg4 harg4 hc0 hc1 x0 xs0 xs1).2.2.1)

/-! ## What the buffers hold after each point -/

/-- After the body at position n: (the output's staging buffer, the product accumulator, the
    sum-of-squares accumulator). -/
def outsAt0 (c : Dev nD) : (n : ℕ) → n < cfg0.N → Vec F S256x256 .f32 × Vec F S256x256 .f32 × Vec F S256x1 .f32
  | 0, hn => (out0_idle,
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩),
      sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 24 = 0 then
      False.elim (by have hN : n + 1 < 24 := lt_of_lt_of_eq hn (show cfg0.N = 24 from N_0); omega)
    else
      if h1 : (n + 1) % 24 = 23 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2)
      else
        (out0_idle,
         sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2)

/-- At the first point. -/
theorem outsAt0_A (c : Dev nD) (t : Fin cfg0.N) (h0 : t.val % 24 = 0) (h1 : ¬t.val % 24 = 23) :
    outsAt0 m c t.val t.isLt = (out0_idle,
      sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t),
      sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)) := by
  obtain ⟨n, hn⟩ := t
  cases n with
  | zero => exact rfl
  | succ n => exact (by exfalso; have hN : n + 1 < 24 := lt_of_lt_of_eq hn (show cfg0.N = 24 from N_0); (try dsimp only at h0); omega)

/-- At a middle point: over what the point before left. -/
theorem outsAt0_B (c : Dev nD) (t : Fin cfg0.N) (h0 : ¬t.val % 24 = 0) (h1 : ¬t.val % 24 = 23) :
    outsAt0 m c t.val t.isLt = (out0_idle,
      sout0_B_0 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the last point: over what the point before left. -/
theorem outsAt0_C (c : Dev nD) (t : Fin cfg0.N) (h0 : ¬t.val % 24 = 0) (h1 : t.val % 24 = 23) :
    outsAt0 m c t.val t.isLt = (
      out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the scoped rest at anything;
    afterwards the two accumulators at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point t the input's buffer at its
    block and the output's at the recursion's first component; the invariant above; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the closed forms say which case the point is in; that case's run
    applies; the invariant hands over the accumulators at what the point before left (at anything
    at the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 24 := lt_of_lt_of_eq t.isLt (show cfg0.N = 24 from N_0)
  rw [show (dats m 0 c).leavesExact 0 t = owns (c : Thread nD τ) (ms0_0 t) fullShare ((dats m 0 c).after 0 t) from by
    unfold Dat.leavesExact; rw [liveAt0_0 t], after0_0]
  by_cases h0 : t.val % 24 = 0
  · have h1 : ¬t.val % 24 = 23 := by omega
    have hz : t.val = 0 := by omega
    rw [Dat.leavesExact_idle (dats m 0 c) 1 t (idleAt0_1 t (fun h => h1 ((hcond0_1 t).mp h))) (noFlush0_1 t (fun h => h1 ((hcond0_1 t).mp h)))]
    rw [outsAt0_A m c t h0 h1]
    unfold sout0_A_0 sout0_A_1; (try dsimp only)
    rw [PhiS_castSucc m c t, PhiS_zero m c _ _ hz, PhiA0_eq]
    iintro ⟨⟨⟨HS0, HS1⟩, Hg⟩, Ho, ⟨%d0, H0⟩, ⟨%d1, H1⟩⟩
    iapply ((kernelRun0_A c (grid0.coords t) _ _ _ _ _ _ _ _ ((hcond0_0 t).mpr h0) (fun h => h1 ((hcond0_1 t).mp h)) (iblk m c 0 t)).2.2 _ Set.univ _)
    isplitl [H0]; · iexact H0
    isplitl [H1]; · iexact H1
    isplitl [HS0]; · iexact HS0
    isplitl [HS1]; · iexact HS1
    iintro ⟨H0, H1, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _)
        · unfold owns; iexists _; isplitr
          swap; · iexact HS1
          ipureintro; exact View.read_writes_of_cover _ _ _ _ _ (scover0_A_1 c _ _ _ _ _ _ _ _ _ _ _ _)
      iexact Hg
    isplitl [Ho]; · iexact Ho
    isplitl [H0]; · iexact H0
    iexists _; iexact H1
  · have hz : t.val ≠ 0 := by omega
    by_cases h1 : t.val % 24 = 23
    · rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold out0_C_1 sout0_C_0 sout0_C_1; (try dsimp only)
      rw [PhiS_castSucc m c t, PhiS_pos m c _ _ hz]
      iintro ⟨⟨⟨HS0, HS1⟩, Hg⟩, Ho, ⟨%d0, H0⟩, ⟨%d1, H1⟩⟩
      iapply ((kernelRun0_C c (grid0.coords t) _ _ _ _ _ _ _ _ (fun h => h0 ((hcond0_0 t).mp h)) ((hcond0_1 t).mpr h1) (iblk m c 0 t) _ _).2.2.2 Set.univ _)
      isplitl [H0]; · iexact H0
      isplitl [H1]; · iexists _; iexact H1
      isplitl [HS0]; · iexact HS0
      isplitl [HS1]; · iexact HS1
      iintro ⟨H0, ⟨%e1, H1⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _ _ _ _)
    · rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩⟩
      iapply ((kernelRun0_B c (grid0.coords t) _ _ _ _ _ _ _ _ (fun h => h0 ((hcond0_0 t).mp h)) (fun h => h1 ((hcond0_1 t).mp h)) (iblk m c 0 t) _ _).2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the accumulators'
    named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 24 := N_0; omega)

/-! ## The run and the frame -/

set_option backward.isDefEq.respectTransparency.types false in
/-- Every weakly fair execution of the program terminates without a fault; at the end each
    window's array holds what the library computes from the proof data and every other unscoped
    buffer what the later operations leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to its end, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.KFinal.lean ====
/-
  The score array after the run. The output window is written back at one grid point only, the last
  of the 24, and its block there is the whole 256 x 256 array: so the array ends holding exactly what
  the last point left in the output's staging buffer.
-/
import proofs.«125715_j54228257079749_1_alg».proof.Proof.FrameI
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The last grid point. -/
def t23 : Fin cfg0.N := ⟨23, by rw [show cfg0.N = 24 from N_0]; decide⟩

/-- What the last point leaves in the output's staging buffer, as contents of the score array (the
    window's one block is the whole array). -/
abbrev result1 (c : Dev nD) : Buf (Elt F) ((c : Thread nD τ).loc main_v1) := (outsAt0 m c 23 t23.isLt).1

/-- The one write-back, at the last point, writes it: block (0, 0) of the 256 x 256 array read through
    zero offsets is the array. -/
theorem flushed_eq1 (c : Dev nD) (t : Fin cfg0.N) (hf : (cfg0.win 1).flush t = true) :
    (dats m 0 c).flushed 1 t = ((cfg0.win 1).blk t).view.read (Elt F) (result1 m c) := by
  have hN : cfg0.N = 24 := N_0
  have h23 : t.val = 23 := by have := (flush0_1 t).mp hf; have := t.isLt; omega
  obtain rfl : t = t23 := Fin.ext h23
  show (cfg0.win 1).cut (grid0.coords t23) ((dats m 0 c).after 1 t23) = _
  rw [after0_1]
  have hz' : (fun a => win0_1.index t23 a * main_v1.ty.shape.size a) = fun _ => 0 := funext fun a => by fin_cases a <;> decide
  exact (Memref.read_access_unit_zero (Elt F) main_v1 hz' (fun a => by rw [congrFun hz' a]; simp) (result1 m c)).symm

/-- So the score array ends holding what the last point left in the staging buffer: that point's
    block covers the array. -/
theorem final1 (c : Dev nD) : (dats m 0 c).arrAt 1 cfg0.N = result1 m c :=
  (dats m 0 c).arrAt_eq_of_cover 1 (result1 m c) (flushed_eq1 m c) fun i =>
    ⟨t23, (flush0_1 t23).mpr rfl, by
      show i ∈ ((View.whole main_v1).slice (win0_1.rect t23)).set
      rw [View.set_slice_whole, Rect.mem_set_unit]
      intro a
      have h0 : (i 0 : Nat) < 256 := (i 0).isLt
      have h1 : (i 1 : Nat) < 256 := (i 1).isLt
      match a with
      | ⟨0, _⟩ => show win0_1.index t23 0 * win0_1.size 0 ≤ (i 0 : Nat) ∧ (i 0 : Nat) < win0_1.index t23 0 * win0_1.size 0 + win0_1.xsize (grid0.coords t23) 0
                  rw [show win0_1.index t23 0 * win0_1.size 0 = 0 from by decide +kernel, show win0_1.xsize (grid0.coords t23) 0 = 256 from by decide +kernel]; omega
      | ⟨1, _⟩ => show win0_1.index t23 1 * win0_1.size 1 ≤ (i 1 : Nat) ∧ (i 1 : Nat) < win0_1.index t23 1 * win0_1.size 1 + win0_1.xsize (grid0.coords t23) 1
                  rw [show win0_1.index t23 1 * win0_1.size 1 = 0 from by decide +kernel, show win0_1.xsize (grid0.coords t23) 1 = 256 from by decide +kernel]; omega⟩

end Cert.KernelIdeal.Fr

end
-- ==== Proof.KPieces.lean ====
/-
  What each case of the kernel body leaves in its buffers, as values: the pieces the runs found,
  read back, are the body's payload terms. At the first point the product accumulator ends at
  the tile product added to the cleared accumulator, the sum-of-squares accumulator likewise;
  at a later point each ends at its payload over what the point before left; at the last point
  the output block is the quotient payload of the two accumulators just updated.
-/
import proofs.«125715_j54228257079749_1_alg».proof.Proof.FrameI
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A middle point's product accumulator. -/
theorem sout_B_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i) (x0 : Vec F S256x4096 .f32) (xs0 : Vec F S256x256 .f32) (xs1 : Vec F S256x1 .f32) :
    sout0_B_0 c i arg1 harg1 arg2 harg2 arg3 harg3 arg4 harg4 hc0 hc1 x0 xs0 xs1 = k0_pay4 x0 xs0 := by
  unfold sout0_B_0
  rw [View.read_writes_eq_canon _ _ _ (scover0_B_0 c i arg1 harg1 arg2 harg2 arg3 harg3 arg4 harg4 hc0 hc1 x0 xs0 xs1)]
  unfold kernelRun0_B; dsimp only; sl_unfold_words
  rw [View.canon_unit_zero hz]
  simp only [View.readAt_eq_ld, harg1.read_unread, harg3.read_unread, View.ld_unit_zero (S := S256x4096) hz, View.ld_unit_zero (S := S256x256) hz]

/-- A middle point's sum-of-squares accumulator. -/
theorem sout_B_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : ¬cond0_1 i) (x0 : Vec F S256x4096 .f32) (xs0 : Vec F S256x256 .f32) (xs1 : Vec F S256x1 .f32) :
    sout0_B_1 c i arg1 harg1 arg2 harg2 arg3 harg3 arg4 harg4 hc0 hc1 x0 xs0 xs1 = k0_pay5 x0 xs1 := by
  unfold sout0_B_1
  rw [View.read_writes_eq_canon _ _ _ (scover0_B_1 c i arg1 harg1 arg2 harg2 arg3 harg3 arg4 harg4 hc0 hc1 x0 xs0 xs1)]
  unfold kernelRun0_B; dsimp only; sl_unfold_words
  rw [View.canon_unit_zero hz]
  simp only [View.readAt_eq_ld, harg1.read_unread, harg4.read_unread, View.ld_unit_zero (S := S256x4096) hz, View.ld_unit_zero (S := S256x1) hz]

/-- The last point's product accumulator. -/
theorem sout_C_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i) (x0 : Vec F S256x4096 .f32) (xs0 : Vec F S256x256 .f32) (xs1 : Vec F S256x1 .f32) :
    sout0_C_0 c i arg1 harg1 arg2 harg2 arg3 harg3 arg4 harg4 hc0 hc1 x0 xs0 xs1 = k0_pay4 x0 xs0 := by
  unfold sout0_C_0
  rw [View.read_writes_eq_canon _ _ _ (scover0_C_0 c i arg1 harg1 arg2 harg2 arg3 harg3 arg4 harg4 hc0 hc1 x0 xs0 xs1)]
  unfold kernelRun0_C; dsimp only; sl_unfold_words
  rw [View.canon_unit_zero hz]
  simp only [View.readAt_eq_ld, harg1.read_unread, harg3.read_unread, View.ld_unit_zero (S := S256x4096) hz, View.ld_unit_zero (S := S256x256) hz]

/-- The last point's sum-of-squares accumulator. -/
theorem sout_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i) (x0 : Vec F S256x4096 .f32) (xs0 : Vec F S256x256 .f32) (xs1 : Vec F S256x1 .f32) :
    sout0_C_1 c i arg1 harg1 arg2 harg2 arg3 harg3 arg4 harg4 hc0 hc1 x0 xs0 xs1 = k0_pay5 x0 xs1 := by
  unfold sout0_C_1
  rw [View.read_writes_eq_canon _ _ _ (scover0_C_1 c i arg1 harg1 arg2 harg2 arg3 harg3 arg4 harg4 hc0 hc1 x0 xs0 xs1)]
  unfold kernelRun0_C; dsimp only; sl_unfold_words
  rw [View.canon_unit_zero hz]
  simp only [View.readAt_eq_ld, harg1.read_unread, harg4.read_unread, View.ld_unit_zero (S := S256x4096) hz, View.ld_unit_zero (S := S256x1) hz]

/-- The last point's output block: the quotient payload of the two accumulators just updated. -/
theorem out_C_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬cond0_0 i) (hc1 : cond0_1 i) (x0 : Vec F S256x4096 .f32) (xs0 : Vec F S256x256 .f32) (xs1 : Vec F S256x1 .f32) :
    out0_C_1 c i arg1 harg1 arg2 harg2 arg3 harg3 arg4 harg4 hc0 hc1 x0 xs0 xs1 = k0_pay6 (k0_pay5 x0 xs1) (k0_pay4 x0 xs0) := by
  unfold out0_C_1
  rw [View.read_writes_eq_canon _ _ _ (cover0_C_1 c i arg1 harg1 arg2 harg2 arg3 harg3 arg4 harg4 hc0 hc1 x0 xs0 xs1)]
  unfold kernelRun0_C; dsimp only; sl_unfold_words
  rw [View.canon_unit_zero hz]
  simp only [View.readCov_unit_zero (S := S256x256) _ hz, View.readCov_unit_zero (S := S256x1) _ hz, View.readAt_eq_ld, harg1.read_unread, harg3.read_unread, harg4.read_unread, View.ld_unit_zero (S := S256x4096) hz, View.ld_unit_zero (S := S256x256) hz, View.ld_unit_zero (S := S256x1) hz]

/-- The first point's product accumulator: the payload over the cleared accumulator. -/
theorem sout_A_0 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i) (x0 : Vec F S256x4096 .f32) :
    sout0_A_0 c i arg1 harg1 arg2 harg2 arg3 harg3 arg4 harg4 hc0 hc1 x0 = k0_pay4 x0 (k0_pay1 (F := F)) := by
  unfold sout0_A_0
  rw [View.read_writes_eq_canon _ _ _ (scover0_A_0 c i arg1 harg1 arg2 harg2 arg3 harg3 arg4 harg4 hc0 hc1 x0)]
  unfold kernelRun0_A; dsimp only; sl_unfold_words
  rw [View.canon_cons_unit_zero (S := S256x256) hz]
  simp only [View.readCov_unit_zero (S := S256x256) _ hz, View.readAt_eq_ld, harg1.read_unread, View.ld_unit_zero (S := S256x4096) hz, View.ld_unit_zero (S := S256x256) hz]

/-- The first point's sum-of-squares accumulator: the payload over the cleared accumulator. -/
theorem sout_A_1 (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : cond0_0 i) (hc1 : ¬cond0_1 i) (x0 : Vec F S256x4096 .f32) :
    sout0_A_1 c i arg1 harg1 arg2 harg2 arg3 harg3 arg4 harg4 hc0 hc1 x0 = k0_pay5 x0 (k0_pay2 (F := F)) := by
  unfold sout0_A_1
  rw [View.read_writes_eq_canon _ _ _ (scover0_A_1 c i arg1 harg1 arg2 harg2 arg3 harg3 arg4 harg4 hc0 hc1 x0)]
  unfold kernelRun0_A; dsimp only; sl_unfold_words
  rw [View.canon_cons_unit_zero (S := S256x1) hz]
  simp only [View.readCov_unit_zero (S := S256x1) _ hz, View.readAt_eq_ld, harg1.read_unread, View.ld_unit_zero (S := S256x4096) hz, View.ld_unit_zero (S := S256x1) hz]

end Cert.KernelIdeal.Fr

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.KBlocks.lean ====
/-
  The input window's block at a grid point, read at coordinates: tile t of the flattened feature
  array holds columns 4096·t … 4096·t + 4095, so entry (a, k) of the block is entry
  (a, 4096·t + k) of the array. What the region finds in the buffers the three leading
  operations wrote: the flattened array is the argument recast, and the two scalar constants hold
  their literals. And a sum over the 24 tiles of a sum over a tile's 4096 columns is the sum over
  all 98304 columns.
-/
import proofs.«125715_j54228257079749_1_alg».proof.Proof.FrameI
import proofs.«125715_j54228257079749_1_alg».proof.Proof.LibERealSums
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Fr

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Column k of tile t, as a column of the flattened array (total in t: reduced modulo the row length). -/
def col (t : ℕ) (k : Fin 4096) : Fin 98304 := ⟨(4096 * t + k.val) % 98304, Nat.mod_lt _ (by decide)⟩

theorem col_val (t : Fin 24) (k : Fin 4096) : (col t.val k).val = 4096 * t.val + k.val := by
  have := t.isLt; have := k.isLt
  show (4096 * t.val + k.val) % 98304 = _
  omega

/-- The input window's block index at point t is (0, t). -/
theorem idx_facts0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- Entry (a, k) of tile t is entry (a, 4096·t + k) of the flattened array. -/
theorem iblk_apply (c : Dev nD) (t : Fin cfg0.N) (a : Fin 256) (k : Fin 4096) :
    (iblk m c 0 t : Vec F S256x4096 .f32) (ix2 a k) = V m c main_v0 (ix2 a (col t.val k)) := by
  have hN : t.val < 24 := lt_of_lt_of_eq t.isLt (show cfg0.N = 24 from N_0)
  have hk := k.isLt
  have hi := idx_facts0 t
  unfold iblk
  rw [View.read_apply]
  show V m c main_v0 _ = V m c main_v0 _
  congr 1
  funext d
  apply Fin.ext
  match d with
  | ⟨0, _⟩ => show win0_0.index t 0 * 256 + 1 * a.val = a.val; rw [hi.1]; omega
  | ⟨1, _⟩ => show win0_0.index t 1 * 4096 + 1 * k.val = (4096 * t.val + k.val) % 98304; rw [hi.2]; omega

/-- The 24 tiles' column sums add up to the sum over all columns (in any commutative monoid). -/
theorem sum_tiles {M : Type*} [AddCommMonoid M] (f : Fin 98304 → M) :
    ∑ t ∈ Finset.range 24, ∑ k : Fin 4096, f (col t k) = ∑ j : Fin 98304, f j := by
  rw [Finset.sum_range (fun t => ∑ k : Fin 4096, f (col t k))]
  exact (Cert.LibERealSums.sum_fin_blocks (m := 24) (n := 4096) (N := 98304) (by decide) (fun t k => col t.val k) col_val f).symm

/-! ## What the region finds in the buffers the leading operations wrote -/

/-- The flattened feature array is the argument recast. -/
theorem V_main_v0 (c : Dev nD) :
    (V m c main_v0 : S256x98304.Idx → Elt F .f32) = shapeCast S256x98304 (m ((c : Thread nD τ).loc main_arg0)) shapeCasts_S256x512x24x8_S256x98304 := by
  show StableHlo.after hostOps0 (fun b => m (c, b)) (Proc.devRef .tc main_v0) = _
  after_results; rfl

/-- The two scalar constants hold their literals. -/
theorem V_main_cst (c : Dev nD) : (V m c main_cst : S_.Idx → Elt F .f32) = constant (F := F) S_ .f32 0x7149F2CA#32 := by
  show StableHlo.after hostOps0 (fun b => m (c, b)) (Proc.devRef .tc main_cst) = _
  after_results
theorem V_main_cst_0 (c : Dev nD) : (V m c main_cst_0 : S_.Idx → Elt F .f32) = constant (F := F) S_ .f32 0xF149F2CA#32 := by
  show StableHlo.after hostOps0 (fun b => m (c, b)) (Proc.devRef .tc main_cst_0) = _
  after_results

end Cert.KernelIdeal.Fr

end
-- ==== Proof.Spec.lean ====
/-
  The cosine-similarity matrix of the rows of a real matrix, as one function of the flattened
  feature array: entry (i, j) is the inner product of rows i and j divided by the product of their
  clamped Euclidean norms, a row's norm being the square root of its sum of squares, clamped below
  at the f32 value nearest 1e-8. Everything is stated on the extended reals, over literal extents.
-/
import Idealize.ShloMosaic.PureOps.Ideal
import Idealize.ShloMosaic.Lib.ValueIdx

noncomputable section

open scoped BigOperators

namespace Cert.Cosine

open Idealize.ShloMosaic Idealize.ShloMosaic.ValueIdx

/-- The flattened features: 256 rows of 98304 entries. -/
abbrev SX : Shape := ⟨2, ![256, 98304]⟩
/-- The score matrix: 256 by 256. -/
abbrev SS : Shape := ⟨2, ![256, 256]⟩

/-- The lower clamp of a norm: the extended real the f32 word of 1e-8 denotes. -/
def eps : EReal := Ideal.ofBits .f32 0x322BCC77#32

/-- Row r's sum of squares. -/
def sumsq (x : SX.Idx → EReal) (r : Fin 256) : EReal := ∑ k : Fin 98304, x (ix2 r k) * x (ix2 r k)

/-- Row r's clamped norm: max (sqrt (sum of squares), eps). -/
def nrm (x : SX.Idx → EReal) (r : Fin 256) : EReal := max (Ideal.sqrt (sumsq x r)) eps

/-- Rows i and j's inner product. -/
def inner (x : SX.Idx → EReal) (i j : Fin 256) : EReal := ∑ k : Fin 98304, x (ix2 i k) * x (ix2 j k)

/-- The cosine scores: inner product over the product of the clamped norms. -/
def G (x : SX.Idx → EReal) : SS.Idx → EReal := fun j =>
  Ideal.div (inner x (j 0) (j 1)) (nrm x (j 0) * nrm x (j 1))

theorem G_apply (x : SX.Idx → EReal) (i j : Fin 256) :
    G x (ix2 i j) = Ideal.div (inner x i j) (nrm x i * nrm x j) := rfl

end Cert.Cosine

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«125715_j54228257079749_1_alg».proof.Proof.LibRows
import proofs.«125715_j54228257079749_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.KPay.lean ====
/-
  The kernel's stored values read at an entry, over the extended reals. The two accumulators start at
  zero; each grid step adds to the 256 x 256 accumulator the product of the step's 256 x 4096 block with
  its own transpose, and to the 256 x 1 accumulator the block's row sums of squares; the last step divides
  the accumulated products, entry (a, b), by the product of the clamped norms of rows a and b, a clamped
  norm being the larger of the square root of the accumulated sum of squares and the lower clamp.
-/
import proofs.«125715_j54228257079749_1_alg».proof.Proof.Gen.KernelIdeal.Skeleton
import proofs.«125715_j54228257079749_1_alg».proof.Proof.Spec
import proofs.«125715_j54228257079749_1_alg».proof.Proof.LibPlainMatmul
import proofs.«125715_j54228257079749_1_alg».proof.Proof.LibMatrixReduce
import proofs.«125715_j54228257079749_1_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Cosine.KPay

open Cert.KernelIdeal Cert.KernelIdeal.Gen Idealize.ShloMosaic Idealize.ShloMosaic.ValueIdx

/-- A square root of an array at an index is the square root of the entry. -/
theorem sqrt_apply {s : Shape} (v : FVec Ideal s .f32) (i : s.Idx) : sqrt v i = Ideal.sqrt (v i) := rfl

/-- The 256 x 256 accumulator starts at zero. -/
theorem pay1_apply (j : S256x256.Idx) : k0_pay1 (F := Ideal) j = 0 := by
  unfold k0_pay1
  rw [shapeCast_self]
  exact Ideal.ofBits_zero_f32

/-- The 256 x 1 accumulator starts at zero. -/
theorem pay2_apply (j : S256x1.Idx) : k0_pay2 (F := Ideal) j = 0 := by
  unfold k0_pay2
  rw [shapeCast_self]
  exact Ideal.ofBits_zero_f32

/-- A step's update of the 256 x 256 accumulator, at (a, b): the block's rows a and b multiplied entry by
    entry and summed are added. -/
theorem pay4_apply (x0 : Vec Ideal S256x4096 .f32) (v6 : Vec Ideal S256x256 .f32) (a b : Fin 256) :
    k0_pay4 x0 v6 (ix2 a b) = v6 (ix2 a b) + ∑ k : Fin 4096, x0 (ix2 a k) * x0 (ix2 b k) := by
  unfold k0_pay4 k0_pay3
  dsimp only
  rw [shapeCast_self, shapeCast_self, addf_apply]
  refine congrArg (v6 (ix2 a b) + ·) ?_
  refine (Cert.LibPlainMatmul.matmul_zero_apply dot_S256x4096_S4096x256_S256x256_1_0_0_1_n_n rfl rfl rfl rfl rfl rfl none _ _ a b).trans ?_
  refine Finset.sum_congr rfl fun k _ => ?_
  rw [transpose_ix2_apply]
  rfl

/-- A step's update of the 256 x 1 accumulator, at (a, 0): the block's row a's sum of squares is added. -/
theorem pay5_apply (x0 : Vec Ideal S256x4096 .f32) (v13 : Vec Ideal S256x1 .f32) (a : Fin 256) :
    k0_pay5 x0 v13 (ix2 a (0 : Fin 1)) = v13 (ix2 a (0 : Fin 1)) + ∑ k : Fin 4096, x0 (ix2 a k) * x0 (ix2 a k) := by
  unfold k0_pay5 k0_pay3
  dsimp only
  rw [shapeCast_self, shapeCast_self, addf_apply]
  refine congrArg (v13 (ix2 a (0 : Fin 1)) + ·) ?_
  refine (Cert.Rows.cast_col _ _ a).trans ?_
  exact Cert.LibMatrixReduce.rowSum_apply (mulf x0 x0) 0x00000000#32 reduces_S256x4096_S256 (.inl rfl) rfl a

/-- The last step's quotient, at (a, b): the accumulated product over the product of the clamped norms of
    rows a and b. -/
theorem pay6_apply (v24 : Vec Ideal S256x1 .f32) (v32 : Vec Ideal S256x256 .f32) (a b : Fin 256) :
    k0_pay6 v24 v32 (ix2 a b)
      = Ideal.div (v32 (ix2 a b))
          (max (Ideal.sqrt (v24 (ix2 a (0 : Fin 1)))) Cert.Cosine.eps * max (Ideal.sqrt (v24 (ix2 b (0 : Fin 1)))) Cert.Cosine.eps) := by
  unfold k0_pay6
  dsimp only
  rw [divf_apply, mulf_apply, Cert.Rows.bcast_col (by decide), Cert.Rows.bcast_row (by decide),
    transpose_ix2_apply, maximumf_apply, maximumf_apply, sqrt_apply, sqrt_apply]
  rfl

end Cert.Cosine.KPay

end
-- ==== Proof.KAccum.lean ====
/-
  The two accumulators after each grid point, in closed form, at the ideal instance: after point
  n the product accumulator holds, at (a, b), the sum over tiles 0 … n of the tile's inner product
  of rows a and b, and the sum-of-squares accumulator holds, at row a, the sum over tiles 0 … n of
  the tile's sum of squares of row a — by induction on the point: the first point adds the first
  tile to the cleared accumulators, every later point adds its tile to what the point before left.
  After the last point these are the full inner product and the full sum of squares, and the
  output block is their quotient by the product of the clamped norms: the cosine scores.
-/
import proofs.«125715_j54228257079749_1_alg».proof.Proof.KPieces
import proofs.«125715_j54228257079749_1_alg».proof.Proof.KBlocks
import proofs.«125715_j54228257079749_1_alg».proof.Proof.KPay
import proofs.«125715_j54228257079749_1_alg».proof.Proof.Spec

set_option maxRecDepth 16384

noncomputable section

open scoped BigOperators

namespace Cert.KernelIdeal.Fr

open Cert.KernelIdeal Cert.KernelIdeal.Gen Idealize.ShloMosaic.ValueIdx

open Idealize.ShloMosaic Idealize.ShloMosaic.TcCoe
open Idealize.SL Idealize.SL.Sem
open Idealize.ShloMosaic.Pipeline (Dat)

variable (m : (ℓ : Loc nD τ sig) → Buf (Elt Ideal) ℓ)

/-- The flattened feature array the region finds, as a function on its index set. -/
abbrev X (c : Dev nD) : Cert.Cosine.SX.Idx → EReal := V m c main_v0

/-- Tile t's inner product of rows a and b. -/
def tileInner (c : Dev nD) (t : ℕ) (a b : Fin 256) : EReal := ∑ k : Fin 4096, X m c (ix2 a (col t k)) * X m c (ix2 b (col t k))

set_option maxHeartbeats 1000000 in
/-- After a point that is not the first, each accumulator is its payload over what the point before left. -/
theorem acc_step (c : Dev nD) (n : ℕ) (hn : n < cfg0.N) (hz : n ≠ 0) :
    (outsAt0 m c n hn).2.1 = k0_pay4 (iblk m c 0 ⟨n, hn⟩ : Vec Ideal S256x4096 .f32) (outsAt0 m c (n - 1) (Nat.lt_of_le_of_lt (Nat.sub_le _ _) hn)).2.1
    ∧ (outsAt0 m c n hn).2.2 = k0_pay5 (iblk m c 0 ⟨n, hn⟩ : Vec Ideal S256x4096 .f32) (outsAt0 m c (n - 1) (Nat.lt_of_le_of_lt (Nat.sub_le _ _) hn)).2.2 := by
  have hN : n < 24 := lt_of_lt_of_eq hn (show cfg0.N = 24 from N_0)
  have h0 : ¬(⟨n, hn⟩ : Fin cfg0.N).val % 24 = 0 := by show ¬n % 24 = 0; omega
  by_cases h1 : (⟨n, hn⟩ : Fin cfg0.N).val % 24 = 23
  · have hC := outsAt0_C m c ⟨n, hn⟩ h0 h1
    exact ⟨(congrArg (fun p => p.2.1) hC).trans (sout_C_0 (F := Ideal) c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h => h0 ((hcond0_0 ⟨n, hn⟩).mp h)) ((hcond0_1 ⟨n, hn⟩).mpr h1) (iblk m c 0 ⟨n, hn⟩) (outsAt0 m c (n - 1) (Nat.lt_of_le_of_lt (Nat.sub_le _ _) hn)).2.1 (outsAt0 m c (n - 1) (Nat.lt_of_le_of_lt (Nat.sub_le _ _) hn)).2.2),
      (congrArg (fun p => p.2.2) hC).trans (sout_C_1 (F := Ideal) c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h => h0 ((hcond0_0 ⟨n, hn⟩).mp h)) ((hcond0_1 ⟨n, hn⟩).mpr h1) (iblk m c 0 ⟨n, hn⟩) (outsAt0 m c (n - 1) (Nat.lt_of_le_of_lt (Nat.sub_le _ _) hn)).2.1 (outsAt0 m c (n - 1) (Nat.lt_of_le_of_lt (Nat.sub_le _ _) hn)).2.2)⟩
  · have hB := outsAt0_B m c ⟨n, hn⟩ h0 h1
    exact ⟨(congrArg (fun p => p.2.1) hB).trans (sout_B_0 (F := Ideal) c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h => h0 ((hcond0_0 ⟨n, hn⟩).mp h)) (fun h => h1 ((hcond0_1 ⟨n, hn⟩).mp h)) (iblk m c 0 ⟨n, hn⟩) (outsAt0 m c (n - 1) (Nat.lt_of_le_of_lt (Nat.sub_le _ _) hn)).2.1 (outsAt0 m c (n - 1) (Nat.lt_of_le_of_lt (Nat.sub_le _ _) hn)).2.2),
      (congrArg (fun p => p.2.2) hB).trans (sout_B_1 (F := Ideal) c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h => h0 ((hcond0_0 ⟨n, hn⟩).mp h)) (fun h => h1 ((hcond0_1 ⟨n, hn⟩).mp h)) (iblk m c 0 ⟨n, hn⟩) (outsAt0 m c (n - 1) (Nat.lt_of_le_of_lt (Nat.sub_le _ _) hn)).2.1 (outsAt0 m c (n - 1) (Nat.lt_of_le_of_lt (Nat.sub_le _ _) hn)).2.2)⟩

/-- After the first point, each accumulator is its payload over the cleared accumulator. -/
theorem acc_first (c : Dev nD) (hn : 0 < cfg0.N) :
    (outsAt0 m c 0 hn).2.1 = k0_pay4 (iblk m c 0 ⟨0, hn⟩ : Vec Ideal S256x4096 .f32) (k0_pay1 (F := Ideal))
    ∧ (outsAt0 m c 0 hn).2.2 = k0_pay5 (iblk m c 0 ⟨0, hn⟩ : Vec Ideal S256x4096 .f32) (k0_pay2 (F := Ideal)) := by
  have h0 : (⟨0, hn⟩ : Fin cfg0.N).val % 24 = 0 := Nat.zero_mod _
  have h1 : ¬(⟨0, hn⟩ : Fin cfg0.N).val % 24 = 23 := by show ¬(0 % 24 = 23); decide
  have hA := outsAt0_A m c ⟨0, hn⟩ h0 h1
  exact ⟨(congrArg (fun p => p.2.1) hA).trans (sout_A_0 (F := Ideal) c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr h0) (fun h => h1 ((hcond0_1 ⟨0, hn⟩).mp h)) (iblk m c 0 ⟨0, hn⟩)),
    (congrArg (fun p => p.2.2) hA).trans (sout_A_1 (F := Ideal) c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr h0) (fun h => h1 ((hcond0_1 ⟨0, hn⟩).mp h)) (iblk m c 0 ⟨0, hn⟩))⟩

set_option maxHeartbeats 1000000 in
/-- The product accumulator and the sum-of-squares accumulator after point n. -/
theorem accum (c : Dev nD) (n : ℕ) : ∀ (hn : n < cfg0.N),
    (∀ a b : Fin 256, (outsAt0 m c n hn).2.1 (ix2 a b) = ∑ t ∈ Finset.range (n + 1), tileInner m c t a b)
    ∧ (∀ a : Fin 256, (outsAt0 m c n hn).2.2 (ix2 a (0 : Fin 1)) = ∑ t ∈ Finset.range (n + 1), tileInner m c t a a) := by
  induction n using Nat.strong_induction_on with
  | _ n ih =>
    intro hn
    by_cases hz : n = 0
    · subst hz
      have key := acc_first m c hn
      constructor
      · intro a b
        rw [key.1]
        refine (Cert.Cosine.KPay.pay4_apply (iblk m c 0 ⟨0, hn⟩ : Vec Ideal S256x4096 .f32) (k0_pay1 (F := Ideal)) a b).trans ?_
        rw [Cert.Cosine.KPay.pay1_apply, zero_add, Finset.sum_range_one]
        unfold tileInner
        exact Finset.sum_congr rfl fun k _ => by rw [iblk_apply m c ⟨0, hn⟩ a k, iblk_apply m c ⟨0, hn⟩ b k]
      · intro a
        rw [key.2]
        refine (Cert.Cosine.KPay.pay5_apply (iblk m c 0 ⟨0, hn⟩ : Vec Ideal S256x4096 .f32) (k0_pay2 (F := Ideal)) a).trans ?_
        rw [Cert.Cosine.KPay.pay2_apply, zero_add, Finset.sum_range_one]
        unfold tileInner
        exact Finset.sum_congr rfl fun k _ => by rw [iblk_apply m c ⟨0, hn⟩ a k]
    · have key := acc_step m c n hn hz
      have ihp := ih (n - 1) (by omega) (Nat.lt_of_le_of_lt (Nat.sub_le _ _) hn)
      have hs : n - 1 + 1 = n := by omega
      constructor
      · intro a b
        rw [key.1]
        refine (Cert.Cosine.KPay.pay4_apply (iblk m c 0 ⟨n, hn⟩ : Vec Ideal S256x4096 .f32) _ a b).trans ?_
        rw [ihp.1 a b, hs, Finset.sum_range_succ _ n]
        refine congrArg (fun z => (∑ t ∈ Finset.range n, tileInner m c t a b) + z) ?_
        unfold tileInner
        exact Finset.sum_congr rfl fun k _ => by rw [iblk_apply m c ⟨n, hn⟩ a k, iblk_apply m c ⟨n, hn⟩ b k]
      · intro a
        rw [key.2]
        refine (Cert.Cosine.KPay.pay5_apply (iblk m c 0 ⟨n, hn⟩ : Vec Ideal S256x4096 .f32) _ a).trans ?_
        rw [ihp.2 a, hs, Finset.sum_range_succ _ n]
        refine congrArg (fun z => (∑ t ∈ Finset.range n, tileInner m c t a a) + z) ?_
        unfold tileInner
        exact Finset.sum_congr rfl fun k _ => by rw [iblk_apply m c ⟨n, hn⟩ a k]

/-- All 24 tiles' inner products add up to the rows' full inner product. -/
theorem tiles_inner (c : Dev nD) (a b : Fin 256) :
    ∑ t ∈ Finset.range 24, tileInner m c t a b = Cert.Cosine.inner (X m c) a b := by
  unfold tileInner Cert.Cosine.inner
  exact sum_tiles (fun j => X m c (ix2 a j) * X m c (ix2 b j))

set_option maxHeartbeats 1000000 in
/-- What the last point (the one point at which the second condition holds) leaves in the output's
    staging buffer is the cosine scores of the flattened feature array. -/
theorem last_out_at (c : Dev nD) (n : ℕ) (hn : n < cfg0.N) (hl : n % 24 = 23) :
    (outsAt0 m c n hn).1 = Cert.Cosine.G (X m c) := by
  have hN : n < 24 := lt_of_lt_of_eq hn (show cfg0.N = 24 from N_0)
  have h0 : ¬(⟨n, hn⟩ : Fin cfg0.N).val % 24 = 0 := by show ¬n % 24 = 0; omega
  have h1 : (⟨n, hn⟩ : Fin cfg0.N).val % 24 = 23 := hl
  have hC := outsAt0_C m c ⟨n, hn⟩ h0 h1
  have key := acc_step m c n hn (by omega)
  have eo : (outsAt0 m c n hn).1 = k0_pay6 (k0_pay5 (iblk m c 0 ⟨n, hn⟩ : Vec Ideal S256x4096 .f32) (outsAt0 m c (n - 1) (Nat.lt_of_le_of_lt (Nat.sub_le _ _) hn)).2.2)
      (k0_pay4 (iblk m c 0 ⟨n, hn⟩ : Vec Ideal S256x4096 .f32) (outsAt0 m c (n - 1) (Nat.lt_of_le_of_lt (Nat.sub_le _ _) hn)).2.1) :=
    (congrArg (fun p => p.1) hC).trans (out_C_1 (F := Ideal) c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h => h0 ((hcond0_0 ⟨n, hn⟩).mp h)) ((hcond0_1 ⟨n, hn⟩).mpr h1) (iblk m c 0 ⟨n, hn⟩) (outsAt0 m c (n - 1) (Nat.lt_of_le_of_lt (Nat.sub_le _ _) hn)).2.1 (outsAt0 m c (n - 1) (Nat.lt_of_le_of_lt (Nat.sub_le _ _) hn)).2.2)
  have e1 : (outsAt0 m c n hn).1 = k0_pay6 (outsAt0 m c n hn).2.2 (outsAt0 m c n hn).2.1 := by
    rw [key.1, key.2]; exact eo
  have hs : n + 1 = 24 := by omega
  funext j
  obtain ⟨a, b, rfl⟩ : ∃ (a b : Fin 256), j = ix2 a b := ⟨j 0, j 1, eq_ix2 j⟩
  have acc := accum m c n hn
  rw [e1, Cert.Cosine.G_apply]
  refine (Cert.Cosine.KPay.pay6_apply _ _ a b).trans ?_
  rw [acc.1 a b, acc.2 a, acc.2 b, hs, tiles_inner, tiles_inner, tiles_inner]
  rfl

/-- At the grid's last point, 23. -/
theorem last_out (c : Dev nD) (h23 : 23 < cfg0.N) : (outsAt0 m c 23 h23).1 = Cert.Cosine.G (X m c) :=
  last_out_at m c 23 h23 rfl

end Cert.KernelIdeal.Fr

end
-- ==== Proof.KRun.lean ====
/-
  The program's run read as values, the later host operations kept folded. At the region's exit the
  score array holds the cosine scores of the flattened feature array, the label argument and the
  two scalar constants hold what they held at the region's entry, and the flattened array is the
  feature argument recast. Every execution of the program terminates; the two results end at what
  the later operations compute from those contents, and both arguments end as launched.
-/
import proofs.«125715_j54228257079749_1_alg».proof.Proof.KFinal
import proofs.«125715_j54228257079749_1_alg».proof.Proof.KAccum
import proofs.«125715_j54228257079749_1_alg».proof.Proof.KBlocks

set_option maxRecDepth 16384

noncomputable section

namespace Cert.KernelIdeal.Fr

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The buffer contents at the region's exit: the windows' arrays at what the region leaves in
    them, every other buffer at what the region found. -/
abbrev Wk (c : Dev nD) : Valuation τ sig (Elt Ideal) :=
  Pipeline.withArrays spec0 c (V0 m c) (fun w => (dats m 0 c).arrAt w cfg0.N)

/-- At the region's exit the score array holds the cosine scores of the flattened feature array. -/
theorem Wk_v1 (c : Dev nD) : Wk m c (Proc.devRef .tc main_v1) = Cert.Cosine.G (X m c) :=
  (Pipeline.withArrays_arr spec0 launch0.win.arr_inj c (V0 m c) (fun w => (dats m 0 c).arrAt w cfg0.N) 1).trans
    ((final1 m c).trans (last_out m c t23.isLt))

/-- The label argument is as launched. -/
theorem Wk_arg1 (c : Dev nD) : Wk m c (Proc.devRef .tc main_arg1) = m ((c : Thread nD τ).loc main_arg1) :=
  (Pipeline.withArrays_of_ne _ c (V0 m c) _ main_arg1 (by exact (by decide : ∀ w, Pipeline.arrRef spec0 w ≠ main_arg1))).trans
    (V_main_arg1 m c)

/-- The two scalar constants hold their literals. -/
theorem Wk_cst (c : Dev nD) : Wk m c (Proc.devRef .tc main_cst) = constant (F := Ideal) S_ .f32 0x7149F2CA#32 :=
  (Pipeline.withArrays_of_ne _ c (V0 m c) _ main_cst (by exact (by decide : ∀ w, Pipeline.arrRef spec0 w ≠ main_cst))).trans
    (V_main_cst m c)
theorem Wk_cst_0 (c : Dev nD) : Wk m c (Proc.devRef .tc main_cst_0) = constant (F := Ideal) S_ .f32 0xF149F2CA#32 :=
  (Pipeline.withArrays_of_ne _ c (V0 m c) _ main_cst_0 (by exact (by decide : ∀ w, Pipeline.arrRef spec0 w ≠ main_cst_0))).trans
    (V_main_cst_0 m c)

/-- The flattened feature array is the feature argument recast. -/
theorem X_eq (c : Dev nD) :
    X m c = shapeCast S256x98304 (m ((c : Thread nD τ).loc main_arg0)) shapeCasts_S256x512x24x8_S256x98304 :=
  V_main_v0 m c

/-- The run: it terminates without a fault; each result ends at what the later operations compute from
    the contents at the region's exit, and both arguments end as launched. -/
theorem krun (ρ : Dev nD → PrngReg) :
    θ_run defs (onTc (τ := τ) (main (F := Ideal))) ⟨m, fun _ => 0, ρ⟩ (fun r => ∀ c : Dev nD,
      r.2.mem ((c.tc : Thread nD τ).loc main_v34) = StableHlo.after (tailOps (F := Ideal)).flatten (Wk m c) (Proc.devRef .tc main_v34)
      ∧ r.2.mem ((c.tc : Thread nD τ).loc main_v43) = StableHlo.after (tailOps (F := Ideal)).flatten (Wk m c) (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v34 (Pipeline.mem_restRefs_of main_v34 (by decide) (by decide)),
     (h c).2 main_v43 (Pipeline.mem_restRefs_of main_v43 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Fr

end
-- ==== Proof.Tail.lean ====
/-
  The host operations that both programs run after the score matrix, carried as one function of the score matrix
  and the labels. From a 256 by 256 score matrix s and 256 labels: call j a same-label partner of row i when
  lab i = lab j and i ≠ j, and a different-label partner when lab i ≠ lab j; a row is counted when it has both.
  Per row, p is the least score over its same-label partners (other entries read as 1e30), q the greatest score
  over its different-label partners (others read as -1e30), and p' the greatest score over its same-label
  partners (others read as -1e30). With n the number of counted rows, the first result is the sum over counted
  rows of max (q - p + 1, 0) divided by max (n, 1) when n > 0 and zero otherwise; the second is the number of
  counted rows with p' > q divided by max (n, 1) when n > 0 and one half otherwise.

  The kernel program runs the same operations, reading the two fill values 1e30 and -1e30 from two scalar buffers
  written before; its tail is stated as a function of those two scalars as well, and agrees with the other at the
  two constants.
-/
import proofs.«125715_j54228257079749_1_alg».proof.Proof.Gen.ReferenceIdeal
import proofs.«125715_j54228257079749_1_alg».proof.Proof.Gen.KernelIdeal.Launch
import Idealize.ShloMosaic.Lib.StableHlo.Run
import Idealize.ShloMosaic.Lib.Pipeline.FrameSuffix
import Idealize.ShloMosaic.PureOps.Ideal

noncomputable section

namespace Cert.Cosine.Tail

section Reference

open Cert.ReferenceIdeal Cert.ReferenceIdeal.Gen Idealize.ShloMosaic Idealize.ShloMosaic.TcCoe Idealize.SL.Sem Idealize.ShloMosaic.StableHlo

/-- The first result as a function of the score matrix s and the labels lab. -/
def tail0 (s : FVec Ideal S256x256 .f32) (lab : IVec S256 32) : FVec Ideal S_ .f32 :=
  select (cmpi .sgt (Host.reduce IntOp.addi (extui 32 (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) natLt_1_32) (constantI S_ 32 0#32) reducesTo_S256_S_d0 h_S_) (constantI S_ 32 0#32)) (Host.divf (Host.reduceAdd (select (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) (maximumf (addf (subf (Host.reduce FloatOps.maximumf (select (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) s (broadcastInDim S256x256 ![] bcast_S_S256x256 (constant S_ .f32 0xF149F2CA#32))) (constant S_ .f32 0xFF800000#32) reducesTo_S256x256_S256_d1 h_S_) (Host.reduce FloatOps.minimumf (select (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) s (broadcastInDim S256x256 ![] bcast_S_S256x256 (constant S_ .f32 0x7149F2CA#32))) (constant S_ .f32 0x7F800000#32) reducesTo_S256x256_S256_d1 h_S_)) (broadcastInDim S256 ![] bcast_S_S256 (constant S_ .f32 0x3F800000#32))) (broadcastInDim S256 ![] bcast_S_S256 (constant S_ .f32 0x00000000#32))) (broadcastInDim S256 ![] bcast_S_S256 (id (constant S_ .f32 0x00000000#32)))) (constant S_ .f32 0x00000000#32) reducesTo_S256_S_d0 h_S_) (sitofp .f32 (maxsi (Host.reduce IntOp.addi (extui 32 (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) natLt_1_32) (constantI S_ 32 0#32) reducesTo_S256_S_d0 h_S_) (constantI S_ 32 1#32)))) (constant S_ .f32 0x00000000#32)

/-- The second result as a function of the score matrix s and the labels lab. -/
def tail1 (s : FVec Ideal S256x256 .f32) (lab : IVec S256 32) : FVec Ideal S_ .f32 :=
  select (cmpi .sgt (Host.reduce IntOp.addi (extui 32 (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) natLt_1_32) (constantI S_ 32 0#32) reducesTo_S256_S_d0 h_S_) (constantI S_ 32 0#32)) (Host.divf (Host.reduceAdd (uitofp .f32 (andi (cmpf .ogt (Host.reduce FloatOps.maximumf (select (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) s (broadcastInDim S256x256 ![] bcast_S_S256x256 (constant S_ .f32 0xF149F2CA#32))) (constant S_ .f32 0xFF800000#32) reducesTo_S256x256_S256_d1 h_S_) (Host.reduce FloatOps.maximumf (select (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) s (broadcastInDim S256x256 ![] bcast_S_S256x256 (constant S_ .f32 0xF149F2CA#32))) (constant S_ .f32 0xFF800000#32) reducesTo_S256x256_S256_d1 h_S_)) (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)))) (constant S_ .f32 0x00000000#32) reducesTo_S256_S_d0 h_S_) (sitofp .f32 (maxsi (Host.reduce IntOp.addi (extui 32 (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) natLt_1_32) (constantI S_ 32 0#32) reducesTo_S256_S_d0 h_S_) (constantI S_ 32 1#32)))) (constant S_ .f32 0x3F000000#32)

/-- The score matrix the reference program computes from the flattened features x: every row divided by its clamped
    norm, times the transpose of the same. -/
def scoresOf (x : FVec Ideal S256x98304 .f32) : FVec Ideal S256x256 .f32 :=
  Host.dotGeneral (F := Ideal) dot_S256x98304_S98304x256_S256x256_1_0_0_1_n_n none (Host.divf x (broadcastInDim S256x98304 ![0, 1] bcast_S256x1_S256x98304_0_1 (maximumf (broadcastInDim S256x1 ![] bcast_S_S256x1 (id (constant S_ .f32 0x322BCC77#32))) (Host.sqrt (broadcastInDim S256x1 ![0] bcast_S256_S256x1_0 (Host.reduceAdd (mulf x x) (constant S_ .f32 0x00000000#32) reducesTo_S256x98304_S256_d1 h_S_)))))) (transpose S98304x256 [1, 0] (Host.divf x (broadcastInDim S256x98304 ![0, 1] bcast_S256x1_S256x98304_0_1 (maximumf (broadcastInDim S256x1 ![] bcast_S_S256x1 (id (constant S_ .f32 0x322BCC77#32))) (Host.sqrt (broadcastInDim S256x1 ![0] bcast_S256_S256x1_0 (Host.reduceAdd (mulf x x) (constant S_ .f32 0x00000000#32) reducesTo_S256x98304_S256_d1 h_S_)))))) transposes_S256x98304_S98304x256_1_0)

end Reference

section Kernel

open Cert.KernelIdeal Cert.KernelIdeal.Gen Idealize.ShloMosaic Idealize.ShloMosaic.TcCoe Idealize.SL.Sem Idealize.ShloMosaic.StableHlo

/-- Writing through a typed reference whose type is the buffer's own is the identity. -/
theorem toBuf_of {sig : RefSig} {Val : EltTy → Type} (r : Ref sig .tc) (h1 : r.ty = r.ty) (h2 : r.space ≠ .host)
    (h3 : r.isScoped = false) (v : r.ty.Contents Val) : (TRef.of (T := r.ty) r h1 h2 h3).toBuf v = v :=
  eq_of_heq (cast_heq _ _)

/-- Reading through a typed reference whose type is the buffer's own is the identity. -/
theorem ofBuf_of {sig : RefSig} {Val : EltTy → Type} (r : Ref sig .tc) (h1 : r.ty = r.ty) (h2 : r.space ≠ .host)
    (h3 : r.isScoped = false) (v : r.ty.Contents Val) : (TRef.of (T := r.ty) r h1 h2 h3).ofBuf v = v :=
  eq_of_heq (cast_heq _ _)

/-- The first result as a function of the score matrix s, the labels lab and the two fill scalars: cp read where a
    least score is taken, cn where a greatest score is taken. -/
def tail0K (s : FVec Ideal S256x256 .f32) (lab : IVec S256 32) (cp cn : FVec Ideal S_ .f32) : FVec Ideal S_ .f32 :=
  select (cmpi .sgt (Host.reduce IntOp.addi (extui 32 (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) natLt_1_32) (constantI S_ 32 0#32) reducesTo_S256_S_d0 h_S_) (constantI S_ 32 0#32)) (Host.divf (Host.reduceAdd (select (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) (maximumf (addf (subf (Host.reduce FloatOps.maximumf (select (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) s (broadcastInDim S256x256 ![] bcast_S_S256x256 cn)) (constant S_ .f32 0xFF800000#32) reducesTo_S256x256_S256_d1 h_S_) (Host.reduce FloatOps.minimumf (select (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) s (broadcastInDim S256x256 ![] bcast_S_S256x256 cp)) (constant S_ .f32 0x7F800000#32) reducesTo_S256x256_S256_d1 h_S_)) (broadcastInDim S256 ![] bcast_S_S256 (constant S_ .f32 0x3F800000#32))) (broadcastInDim S256 ![] bcast_S_S256 (constant S_ .f32 0x00000000#32))) (broadcastInDim S256 ![] bcast_S_S256 (id (constant S_ .f32 0x00000000#32)))) (constant S_ .f32 0x00000000#32) reducesTo_S256_S_d0 h_S_) (sitofp .f32 (maxsi (Host.reduce IntOp.addi (extui 32 (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) natLt_1_32) (constantI S_ 32 0#32) reducesTo_S256_S_d0 h_S_) (constantI S_ 32 1#32)))) (constant S_ .f32 0x00000000#32)

/-- The second result, likewise. -/
def tail1K (s : FVec Ideal S256x256 .f32) (lab : IVec S256 32) (cp cn : FVec Ideal S_ .f32) : FVec Ideal S_ .f32 :=
  select (cmpi .sgt (Host.reduce IntOp.addi (extui 32 (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) natLt_1_32) (constantI S_ 32 0#32) reducesTo_S256_S_d0 h_S_) (constantI S_ 32 0#32)) (Host.divf (Host.reduceAdd (uitofp .f32 (andi (cmpf .ogt (Host.reduce FloatOps.maximumf (select (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) s (broadcastInDim S256x256 ![] bcast_S_S256x256 cn)) (constant S_ .f32 0xFF800000#32) reducesTo_S256x256_S256_d1 h_S_) (Host.reduce FloatOps.maximumf (select (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) s (broadcastInDim S256x256 ![] bcast_S_S256x256 cn)) (constant S_ .f32 0xFF800000#32) reducesTo_S256x256_S256_d1 h_S_)) (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)))) (constant S_ .f32 0x00000000#32) reducesTo_S256_S_d0 h_S_) (sitofp .f32 (maxsi (Host.reduce IntOp.addi (extui 32 (andi (Host.reduce IntOp.ori (andi (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab))) (noti (cmpi .eq (addi (iotaInDim S256x256 32 0) (broadcastInDim S256x256 ![] bcast_S_S256x256 (constantI S_ 32 0#32))) (iotaInDim S256x256 32 1)))) (constantI S_ 1 0#1) reducesTo_S256x256_S256_d1 h_S_) (Host.reduce IntOp.ori (noti (cmpi .eq (broadcastInDim S256x256 ![0, 1] bcast_S256x1_S256x256_0_1 (broadcastInDim S256x1 ![0] bcast_S256_S256x1_0 lab)) (broadcastInDim S256x256 ![0, 1] bcast_S1x256_S256x256_0_1 (broadcastInDim S1x256 ![1] bcast_S256_S1x256_1 lab)))) (constantI S_ 1 0#1) reducesTo_S256x256_S256_d1 h_S_)) natLt_1_32) (constantI S_ 32 0#32) reducesTo_S256_S_d0 h_S_) (constantI S_ 32 1#32)))) (constant S_ .f32 0x3F000000#32)

set_option maxRecDepth 8192 in
set_option maxHeartbeats 4000000 in
/-- From any contents W, the operations leave the first result's buffer at tail0K of W's score matrix, labels and
    fill scalars. -/
theorem ker_tail0 (W : Valuation τ sig (Elt Ideal)) :
    StableHlo.after (List.flatten [hostOps1, hostOps1_1, hostOps1_2, hostOps1_3, hostOps1_4, hostOps1_5, hostOps1_6, hostOps1_7, hostOps1_8, hostOps1_9, hostOps1_10, hostOps1_11, hostOps1_12]) W (Proc.devRef .tc main_v34)
      = tail0K (W (Proc.devRef .tc main_v1)) (W (Proc.devRef .tc main_arg1)) (W (Proc.devRef .tc main_cst)) (W (Proc.devRef .tc main_cst_0)) := by
  simp only [hostOps1, hostOps1_1, hostOps1_2, hostOps1_3, hostOps1_4, hostOps1_5, hostOps1_6, hostOps1_7, hostOps1_8, hostOps1_9, hostOps1_10, hostOps1_11, hostOps1_12, List.flatten_cons, List.flatten_nil, List.append_nil, List.cons_append, List.nil_append]
  after_results_simp
  repeat (first | rw [toBuf_of] | rw [ofBuf_of])
  rfl

set_option maxRecDepth 8192 in
set_option maxHeartbeats 4000000 in
/-- And the second result's buffer at tail1K of the same. -/
theorem ker_tail1 (W : Valuation τ sig (Elt Ideal)) :
    StableHlo.after (List.flatten [hostOps1, hostOps1_1, hostOps1_2, hostOps1_3, hostOps1_4, hostOps1_5, hostOps1_6, hostOps1_7, hostOps1_8, hostOps1_9, hostOps1_10, hostOps1_11, hostOps1_12]) W (Proc.devRef .tc main_v43)
      = tail1K (W (Proc.devRef .tc main_v1)) (W (Proc.devRef .tc main_arg1)) (W (Proc.devRef .tc main_cst)) (W (Proc.devRef .tc main_cst_0)) := by
  simp only [hostOps1, hostOps1_1, hostOps1_2, hostOps1_3, hostOps1_4, hostOps1_5, hostOps1_6, hostOps1_7, hostOps1_8, hostOps1_9, hostOps1_10, hostOps1_11, hostOps1_12, List.flatten_cons, List.flatten_nil, List.append_nil, List.cons_append, List.nil_append]
  after_results_simp
  repeat (first | rw [toBuf_of] | rw [ofBuf_of])
  rfl

/-- At the two fill constants the kernel program's tail is the reference's. -/
theorem tail0K_eq (s : FVec Ideal S256x256 .f32) (lab : IVec S256 32) :
    tail0K s lab (constant S_ .f32 0x7149F2CA#32) (constant S_ .f32 0xF149F2CA#32) = tail0 s lab := rfl

theorem tail1K_eq (s : FVec Ideal S256x256 .f32) (lab : IVec S256 32) :
    tail1K s lab (constant S_ .f32 0x7149F2CA#32) (constant S_ .f32 0xF149F2CA#32) = tail1 s lab := rfl

end Kernel

end Cert.Cosine.Tail

end
-- ==== Proof.RefScores.lean ====
/-
  The reference's score matrix is the cosine-score specification. The reference divides every row of
  the feature array by the row's clamped norm and multiplies the normalised array by its transpose:
  entry (i, j) is the sum over k of (x_ik / n_i) * (x_jk / n_j), with n_r = max (eps, sqrt (sum_k x_rk^2)).
  When every entry of x is a real number each n_r is a positive real (eps is one), so the division is
  the real division and the sum equals (sum_k x_ik * x_jk) / (n_i * n_j), the specification's entry.
-/
import proofs.«125715_j54228257079749_1_alg».proof.Proof.Spec
import proofs.«125715_j54228257079749_1_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.Cosine.Ref

open Cert.ReferenceIdeal Cert.ReferenceIdeal.Gen Idealize.ShloMosaic Idealize.ShloMosaic.ValueIdx

/-- The reference's score matrix as a function of the flattened features. -/
def refScores (x : FVec Ideal S256x98304 .f32) : FVec Ideal S256x256 .f32 :=
  Host.dotGeneral (F := Ideal) dot_S256x98304_S98304x256_S256x256_1_0_0_1_n_n none (Host.divf x (broadcastInDim S256x98304 ![0, 1] bcast_S256x1_S256x98304_0_1 (maximumf (broadcastInDim S256x1 ![] bcast_S_S256x1 (id (constant S_ .f32 0x322BCC77#32))) (Host.sqrt (broadcastInDim S256x1 ![0] bcast_S256_S256x1_0 (Host.reduceAdd (mulf x x) (constant S_ .f32 0x00000000#32) reducesTo_S256x98304_S256_d1 h_S_)))))) (transpose S98304x256 [1, 0] (Host.divf x (broadcastInDim S256x98304 ![0, 1] bcast_S256x1_S256x98304_0_1 (maximumf (broadcastInDim S256x1 ![] bcast_S_S256x1 (id (constant S_ .f32 0x322BCC77#32))) (Host.sqrt (broadcastInDim S256x1 ![0] bcast_S256_S256x1_0 (Host.reduceAdd (mulf x x) (constant S_ .f32 0x00000000#32) reducesTo_S256x98304_S256_d1 h_S_)))))) transposes_S256x98304_S98304x256_1_0)

/-! ### Small general facts -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The coercion of the larger of two reals is the larger of the coercions. -/
theorem coe_max (u e : ℝ) : ((max u e : ℝ) : EReal) = max (u : EReal) (e : EReal) := by
  rcases le_total u e with h | h
  · rw [max_eq_right h, max_eq_right (EReal.coe_le_coe_iff.mpr h)]
  · rw [max_eq_left h, max_eq_left (EReal.coe_le_coe_iff.mpr h)]

/-- The extended-real quotient of two reals, the divisor not zero, is the real quotient. -/
theorem div_coe_coe {p n : ℝ} (h : n ≠ 0) : Ideal.div (p : EReal) (n : EReal) = ((p / n : ℝ) : EReal) := by
  rw [Ideal.div_coe h, ← EReal.coe_mul, mul_one_div]

/-- The lower clamp is a positive real number: 11258999 / 2^50. -/
theorem eps_pos_real : ∃ e : ℝ, 0 < e ∧ eps = (e : EReal) := by
  refine ⟨11258999 * ((2 : ℝ) ^ 50)⁻¹, by positivity, ?_⟩
  unfold eps
  simp [Ideal.ofBits, Ideal.ieee]

/-! ### The reference's operations read at an index -/

/-- The sum over the second axis from the zero pattern, at row r: the sum of the row's entries. -/
theorem rowsum_apply (y : FVec Ideal S256x98304 .f32) (r : Fin 256) :
    Host.reduceAdd (F := Ideal) y (constant S_ .f32 0x00000000#32) reducesTo_S256x98304_S256_d1 h_S_ (ix1 r)
      = ∑ k : Fin 98304, y (ix2 r k) := by
  simp only [Host.reduceAdd, Ideal.hostReduceAdd_def]
  rw [Ideal.hostReduceAdd_single reducesTo_S256x98304_S256_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- A vector of 256 entries spread as a column: entry (r, z) is entry r. -/
theorem bcol_apply (v : FVec Ideal S256 .f32) (r : Fin 256) (z : Fin 1) :
    broadcastInDim S256x1 ![0] bcast_S256_S256x1_0 v (ix2 r z) = v (ix1 r) :=
  broadcastInDim_apply _ bcast_S256_S256x1_0 v (ix2 r z) (ix1 r) (fun a => match a with
    | ⟨0, _⟩ => by show r.val = if (256 : Nat) = 1 then 0 else r.val; rw [if_neg (by decide)])

/-- A scalar spread over a column: every entry is the scalar. -/
theorem bscal_apply (c : FVec Ideal S_ .f32) (j : S256x1.Idx) :
    broadcastInDim S256x1 ![] bcast_S_S256x1 c j = c ix0 :=
  broadcastInDim_apply _ bcast_S_S256x1 c j ix0 (fun a => a.elim0)

/-- A column spread along the rows: entry (r, k) is the column's entry (r, 0). -/
theorem bfull_apply (v : FVec Ideal S256x1 .f32) (r : Fin 256) (k : Fin 98304) :
    broadcastInDim S256x98304 ![0, 1] bcast_S256x1_S256x98304_0_1 v (ix2 r k) = v (ix2 r (0 : Fin 1)) :=
  broadcastInDim_apply _ bcast_S256x1_S256x98304_0_1 v (ix2 r k) (ix2 r (0 : Fin 1)) (fun a => match a with
    | ⟨0, _⟩ => by show r.val = if (256 : Nat) = 1 then 0 else r.val; rw [if_neg (by decide)]
    | ⟨1, _⟩ => by show 0 = if (1 : Nat) = 1 then 0 else k.val; rw [if_pos rfl])

/-- The transpose: entry (k, j) is entry (j, k) of the operand. -/
theorem tr_apply (y : FVec Ideal S256x98304 .f32) (k : Fin 98304) (j : Fin 256) :
    transpose S98304x256 [1, 0] y transposes_S256x98304_S98304x256_1_0 (ix2 k j) = y (ix2 j k) :=
  transpose_apply [1, 0] y transposes_S256x98304_S98304x256_1_0 (ix2 k j) (ix2 j k) (fun b => match b with
    | ⟨0, _⟩ => rfl
    | ⟨1, _⟩ => rfl)

theorem dot_lhs0 (i : S256x256.Idx) (q : dot_S256x98304_S98304x256_S256x256_1_0_0_1_n_n.contr.Idx) :
    (dot_S256x98304_S98304x256_S256x256_1_0_0_1_n_n.lhsIdx i q 0).val = (i 0).val := by
  unfold DotDims.lhsIdx
  rw [dif_neg (show ¬(0 : Fin S256x98304.rank) ∈ dot_S256x98304_S98304x256_S256x256_1_0_0_1_n_n.lhsBatch by decide), dif_pos (show (0 : Fin S256x98304.rank) ∈ dot_S256x98304_S98304x256_S256x256_1_0_0_1_n_n.lhsNonContracting by decide)]
  rfl
theorem dot_lhs1 (i : S256x256.Idx) (q : dot_S256x98304_S98304x256_S256x256_1_0_0_1_n_n.contr.Idx) :
    (dot_S256x98304_S98304x256_S256x256_1_0_0_1_n_n.lhsIdx i q 1).val = (q ⟨0, by decide⟩).val :=
  dot_S256x98304_S98304x256_S256x256_1_0_0_1_n_n.lhsIdx_val_of_single rfl i q
theorem dot_rhs0 (i : S256x256.Idx) (q : dot_S256x98304_S98304x256_S256x256_1_0_0_1_n_n.contr.Idx) :
    (dot_S256x98304_S98304x256_S256x256_1_0_0_1_n_n.rhsIdx i q 0).val = (q ⟨0, by decide⟩).val :=
  dot_S256x98304_S98304x256_S256x256_1_0_0_1_n_n.rhsIdx_val_of_single rfl i q
theorem dot_rhs1 (i : S256x256.Idx) (q : dot_S256x98304_S98304x256_S256x256_1_0_0_1_n_n.contr.Idx) :
    (dot_S256x98304_S98304x256_S256x256_1_0_0_1_n_n.rhsIdx i q 1).val = (i 1).val := by
  unfold DotDims.rhsIdx
  rw [dif_neg (show ¬(1 : Fin S98304x256.rank) ∈ dot_S256x98304_S98304x256_S256x256_1_0_0_1_n_n.rhsBatch by decide), dif_pos (show (1 : Fin S98304x256.rank) ∈ dot_S256x98304_S98304x256_S256x256_1_0_0_1_n_n.rhsNonContracting by decide)]
  rfl

/-- The product of a 256 x 98304 array with a 98304 x 256 one, at (i, j): the sum over k of the products. -/
theorem dot_apply (l : FVec Ideal S256x98304 .f32) (rr : FVec Ideal S98304x256 .f32) (i j : Fin 256) :
    Host.dotGeneral (F := Ideal) dot_S256x98304_S98304x256_S256x256_1_0_0_1_n_n none l rr (ix2 i j)
      = ∑ k : Fin 98304, l (ix2 i k) * rr (ix2 k j) := by
  simp only [Host.dotGeneral]
  rw [Ideal.dotGeneral_apply, ← Equiv.sum_comp (ValueIdx.contrEquiv1 dot_S256x98304_S98304x256_S256x256_1_0_0_1_n_n 98304 rfl rfl).symm]
  refine Finset.sum_congr rfl fun k _ => ?_
  have hk := ValueIdx.contrEquiv1_symm_val dot_S256x98304_S98304x256_S256x256_1_0_0_1_n_n 98304 rfl rfl k
  have el : dot_S256x98304_S98304x256_S256x256_1_0_0_1_n_n.lhsIdx (ix2 i j) ((ValueIdx.contrEquiv1 dot_S256x98304_S98304x256_S256x256_1_0_0_1_n_n 98304 rfl rfl).symm k) = ix2 i k := funext fun a => Fin.ext (by
    match a with
    | ⟨0, _⟩ => exact dot_lhs0 _ _
    | ⟨1, _⟩ => exact (dot_lhs1 _ _).trans hk)
  have er : dot_S256x98304_S98304x256_S256x256_1_0_0_1_n_n.rhsIdx (ix2 i j) ((ValueIdx.contrEquiv1 dot_S256x98304_S98304x256_S256x256_1_0_0_1_n_n 98304 rfl rfl).symm k) = ix2 k j := funext fun a => Fin.ext (by
    match a with
    | ⟨0, _⟩ => exact (dot_rhs0 _ _).trans hk
    | ⟨1, _⟩ => exact dot_rhs1 _ _)
  rw [el, er]

/-! ### The reference's intermediate arrays -/

/-- The row sums of squares. -/
def sq (x : FVec Ideal S256x98304 .f32) : FVec Ideal S256 .f32 :=
  Host.reduceAdd (mulf x x) (constant S_ .f32 0x00000000#32) reducesTo_S256x98304_S256_d1 h_S_

/-- The clamped norms, as a column. -/
def ncol (x : FVec Ideal S256x98304 .f32) : FVec Ideal S256x1 .f32 :=
  maximumf (broadcastInDim S256x1 ![] bcast_S_S256x1 (id (constant S_ .f32 0x322BCC77#32)))
    (Host.sqrt (broadcastInDim S256x1 ![0] bcast_S256_S256x1_0 (sq x)))

/-- The features with every row divided by its clamped norm. -/
def nx (x : FVec Ideal S256x98304 .f32) : FVec Ideal S256x98304 .f32 :=
  Host.divf x (broadcastInDim S256x98304 ![0, 1] bcast_S256x1_S256x98304_0_1 (ncol x))

theorem refScores_eq_dot (x : FVec Ideal S256x98304 .f32) :
    refScores x = Host.dotGeneral (F := Ideal) dot_S256x98304_S98304x256_S256x256_1_0_0_1_n_n none (nx x)
      (transpose S98304x256 [1, 0] (nx x) transposes_S256x98304_S98304x256_1_0) := rfl

theorem sq_apply (x : FVec Ideal S256x98304 .f32) (r : Fin 256) : sq x (ix1 r) = sumsq x r := by
  unfold sq sumsq
  exact rowsum_apply (mulf x x) r

/-- A quotient of two arrays at an index is the quotient of the entries. -/
theorem hostDivf_apply {s : Shape} (a b : FVec Ideal s .f32) (i : s.Idx) : Host.divf a b i = Ideal.div (a i) (b i) := rfl
/-- A square root of an array at an index is the square root of the entry. -/
theorem hostSqrt_apply {s : Shape} (a : FVec Ideal s .f32) (i : s.Idx) : Host.sqrt a i = Ideal.sqrt (a i) := rfl

theorem ncol_apply (x : FVec Ideal S256x98304 .f32) (r : Fin 256) (z : Fin 1) : ncol x (ix2 r z) = nrm x r := by
  unfold ncol nrm
  rw [maximumf_apply, hostSqrt_apply, bscal_apply, bcol_apply, sq_apply, max_comm]
  rfl

theorem nx_apply (x : FVec Ideal S256x98304 .f32) (r : Fin 256) (k : Fin 98304) :
    nx x (ix2 r k) = Ideal.div (x (ix2 r k)) (nrm x r) := by
  unfold nx
  rw [hostDivf_apply, bfull_apply, ncol_apply]

/-- The reference's score at (i, j): the sum over k of the two normalised entries' product. -/
theorem refScores_apply (x : FVec Ideal S256x98304 .f32) (i j : Fin 256) :
    refScores x (ix2 i j)
      = ∑ k : Fin 98304, Ideal.div (x (ix2 i k)) (nrm x i) * Ideal.div (x (ix2 j k)) (nrm x j) := by
  rw [refScores_eq_dot, dot_apply]
  refine Finset.sum_congr rfl fun k _ => ?_
  rw [tr_apply, nx_apply, nx_apply]

/-! ### The algebra, over real entries -/

/-- Over real entries a row's clamped norm is a positive real number. -/
theorem nrm_real (a : SX.Idx → ℝ) (r : Fin 256) :
    ∃ n : ℝ, 0 < n ∧ nrm (fun t => (a t : EReal)) r = (n : EReal) := by
  obtain ⟨e, he, hE⟩ := eps_pos_real
  refine ⟨max (Real.sqrt (∑ k : Fin 98304, a (ix2 r k) * a (ix2 r k))) e, lt_max_of_lt_right he, ?_⟩
  have h1 : sumsq (fun t => (a t : EReal)) r = ((∑ k : Fin 98304, a (ix2 r k) * a (ix2 r k) : ℝ) : EReal) := by
    show (∑ k : Fin 98304, ((a (ix2 r k) : ℝ) : EReal) * ((a (ix2 r k) : ℝ) : EReal)) = _
    rw [coe_sum]
    exact Finset.sum_congr rfl fun k _ => (EReal.coe_mul _ _).symm
  unfold nrm
  rw [h1, hE, Ideal.sqrt_coe, if_neg (not_lt.mpr (Finset.sum_nonneg fun k _ => mul_self_nonneg _)), coe_max]

/-- Over real entries: the sum of the products of the normalised entries is the inner product over the
    product of the norms. -/
theorem cosine_real (a : SX.Idx → ℝ) (i j : Fin 256) :
    (∑ k : Fin 98304, Ideal.div ((a (ix2 i k) : ℝ) : EReal) (nrm (fun t => (a t : EReal)) i)
        * Ideal.div ((a (ix2 j k) : ℝ) : EReal) (nrm (fun t => (a t : EReal)) j))
      = Ideal.div (inner (fun t => (a t : EReal)) i j)
          (nrm (fun t => (a t : EReal)) i * nrm (fun t => (a t : EReal)) j) := by
  obtain ⟨ni, hni, hNi⟩ := nrm_real a i
  obtain ⟨nj, hnj, hNj⟩ := nrm_real a j
  have hin : inner (fun t => (a t : EReal)) i j = ((∑ k : Fin 98304, a (ix2 i k) * a (ix2 j k) : ℝ) : EReal) := by
    show (∑ k : Fin 98304, ((a (ix2 i k) : ℝ) : EReal) * ((a (ix2 j k) : ℝ) : EReal)) = _
    rw [coe_sum]
    exact Finset.sum_congr rfl fun k _ => (EReal.coe_mul _ _).symm
  have hk : ∀ k : Fin 98304, Ideal.div ((a (ix2 i k) : ℝ) : EReal) (ni : EReal) * Ideal.div ((a (ix2 j k) : ℝ) : EReal) (nj : EReal)
      = ((a (ix2 i k) / ni * (a (ix2 j k) / nj) : ℝ) : EReal) := fun k => by
    rw [div_coe_coe hni.ne', div_coe_coe hnj.ne', EReal.coe_mul]
  rw [hNi, hNj, hin, ← EReal.coe_mul, div_coe_coe (mul_pos hni hnj).ne', Finset.sum_congr rfl fun k _ => hk k, ← coe_sum]
  refine congrArg (fun t : ℝ => (t : EReal)) ?_
  rw [Finset.sum_div]
  refine Finset.sum_congr rfl fun k _ => ?_
  field_simp

/-- Over real entries the reference's score matrix is the cosine-score specification. -/
theorem refScores_eq_G (x : FVec Ideal S256x98304 .f32) (hx : ∀ i, ∃ r : ℝ, x i = (r : EReal)) :
    refScores x = Cert.Cosine.G x := by
  choose a ha using hx
  obtain rfl : x = fun t => (a t : EReal) := funext ha
  funext j
  obtain ⟨i, k, rfl⟩ : ∃ (i k : Fin 256), j = ix2 i k := ⟨j 0, j 1, eq_ix2 j⟩
  rw [G_apply, refScores_apply]
  exact cosine_real a i k

end Cert.Cosine.Ref

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.Finite.lean ====
/-
  The finiteness precondition, decoded: it tests |x| < +∞ at every entry of the feature array and
  reduces the comparison bits by "and"; when the result is 1 every entry is a real number. The same
  then holds of the array read through its row-major reshape to 256 rows of 98304 entries, since an
  entry of a reshaped array is an entry of the source.
-/
import proofs.«125715_j54228257079749_1_alg».proof.Proof.LibFiniteAll
import proofs.«125715_j54228257079749_1_alg».proof.Proof.Gen.Pre_finite_inputs
import proofs.«125715_j54228257079749_1_alg».proof.Proof.Gen.ReferenceIdeal
import proofs.«125715_j54228257079749_1_alg».proof.Defs

noncomputable section

namespace Cert.Cosine.Fin

open Idealize.ShloMosaic Idealize.SL.Sem

/-- Under the precondition every entry of the feature argument is a real number. -/
theorem real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg0)) i = (r : EReal) := by
  have e := congrFun (h c) ValueIdx.ix0
  dsimp only [Cert.Pre_finite_inputs.fn] at e
  exact Cert.FiniteAll.all_real _ _ _ _ _ e

/-- A reshape of an array of reals is an array of reals: each of its entries is an entry of the source. -/
theorem real_shapeCast {s t : Shape} (x : s.Idx → EReal) (hc : s.ShapeCasts t)
    (hx : ∀ i, ∃ r : ℝ, x i = (r : EReal)) : ∀ j, ∃ r : ℝ, shapeCast t x hc j = (r : EReal) := by
  intro j
  unfold shapeCast
  exact hx _

/-- Under the precondition every entry of the flattened features, 256 rows of 98304 entries, is a real number. -/
theorem real_of_pre_flat
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (shapeCast Cert.ReferenceIdeal.S256x98304
        (m ((c.tc : Thread Cert.KernelIdeal.nD Cert.KernelIdeal.τ).loc Cert.KernelIdeal.main_arg0))
        Cert.ReferenceIdeal.Gen.shapeCasts_S256x512x24x8_S256x98304) i = (r : EReal) :=
  real_shapeCast _ _ (real_of_pre m h c)

end Cert.Cosine.Fin

end
-- ==== Proof.Bridge.lean ====
/-
  The two sides meet. On the kernel's side, the contents the later host operations leave in the
  two result buffers are the shared tail of the cosine scores of the flattened features and the
  labels: the region's exit holds the score array at the cosine scores, the labels as launched,
  and the two fill scalars at their literals. On the reference's side, its score matrix — the
  rows divided by their clamped norms, then multiplied with their transpose — is the same cosine
  scores whenever every feature is a real number, which the precondition says.
-/
import proofs.«125715_j54228257079749_1_alg».proof.Proof.KRun
import proofs.«125715_j54228257079749_1_alg».proof.Proof.Tail
import proofs.«125715_j54228257079749_1_alg».proof.Proof.RefScores
import proofs.«125715_j54228257079749_1_alg».proof.Proof.Finite

noncomputable section

namespace Cert.Cosine.Bridge

open Idealize.ShloMosaic Idealize.ShloMosaic.TcCoe Idealize.SL.Sem
open Cert.KernelIdeal Cert.KernelIdeal.Gen Cert.KernelIdeal.Fr

variable (m : (ℓ : Loc nD τ sig) → Buf (Elt Ideal) ℓ)

/-- The first result buffer after the later operations: the tail of the cosine scores and the labels. -/
theorem kres0 (c : Dev nD) :
    StableHlo.after (tailOps (F := Ideal)).flatten (Wk m c) (Proc.devRef .tc main_v34)
      = Cert.Cosine.Tail.tail0 (Cert.Cosine.G (X m c)) (m ((c : Thread nD τ).loc main_arg1)) := by
  refine (Cert.Cosine.Tail.ker_tail0 (Wk m c)).trans ?_
  rw [Wk_v1, Wk_arg1, Wk_cst, Wk_cst_0]
  exact Cert.Cosine.Tail.tail0K_eq _ _

/-- The second result buffer likewise. -/
theorem kres1 (c : Dev nD) :
    StableHlo.after (tailOps (F := Ideal)).flatten (Wk m c) (Proc.devRef .tc main_v43)
      = Cert.Cosine.Tail.tail1 (Cert.Cosine.G (X m c)) (m ((c : Thread nD τ).loc main_arg1)) := by
  refine (Cert.Cosine.Tail.ker_tail1 (Wk m c)).trans ?_
  rw [Wk_v1, Wk_arg1, Wk_cst, Wk_cst_0]
  exact Cert.Cosine.Tail.tail1K_eq _ _

/-- The score matrix the later operations are applied to is the reference's score matrix, term for term. -/
theorem scoresOf_eq (x : FVec Ideal Cert.ReferenceIdeal.S256x98304 .f32) :
    Cert.Cosine.Tail.scoresOf x = Cert.Cosine.Ref.refScores x := by
  unfold Cert.Cosine.Tail.scoresOf Cert.Cosine.Ref.refScores; rfl

/-- Under the precondition the reference's score matrix of the flattened features is the cosine
    scores the kernel's region leaves. -/
theorem ref_scores (hpre : Cert.Pre_KernelIdeal m) (c : Dev nD) :
    Cert.Cosine.Tail.scoresOf (shapeCast Cert.ReferenceIdeal.S256x98304 (m ((c.tc : Thread nD τ).loc main_arg0))
        Cert.ReferenceIdeal.Gen.shapeCasts_S256x512x24x8_S256x98304)
      = Cert.Cosine.G (X m c) :=
  (scoresOf_eq _).trans ((Cert.Cosine.Ref.refScores_eq_G _ (Cert.Cosine.Fin.real_of_pre_flat m hpre c)).trans
    (congrArg Cert.Cosine.G (X_eq m c).symm))

end Cert.Cosine.Bridge

end
-- ==== Proof.RefRun.lean ====
/-
  The reference program's run, read in two stretches. Its eighty-one operations are a straight line: the first
  sixteen compute the score matrix of the flattened features (every row divided by its clamped norm, times the
  transpose of the same) and write the two fill scalars; the remaining sixty-five read only the score matrix, the
  labels and the two fill scalars, and are the shared tail. Every weakly fair execution terminates with each buffer
  at the operations' composed value of the launch contents, so the two results are the tail of the score matrix and
  the labels, and the arguments are unchanged.
-/
import proofs.«125715_j54228257079749_1_alg».proof.Proof.Tail
import proofs.«125715_j54228257079749_1_alg».proof.Proof.Gen.ReferenceIdeal
import Idealize.ShloMosaic.Lib.StableHlo.Run

noncomputable section

namespace Cert.Cosine.RefRun

open Cert.ReferenceIdeal Cert.ReferenceIdeal.Gen Idealize.ShloMosaic Idealize.ShloMosaic.TcCoe Idealize.SL.Sem Idealize.ShloMosaic.StableHlo
open Cert.Cosine.Tail

variable {F : FTy → Type} [FloatOps F]

/-- The reference program's eighty-one operations, in order. -/
abbrev ops : List (HloOp τ sig (Elt F)) :=
  [ nullary main_cst (constant S_ .f32 0x7149F2CA#32),
    nullary main_cst_0 (constant S_ .f32 0xF149F2CA#32),
    reshape main_arg0 main_v0 rfl shapeCasts_S256x512x24x8_S256x98304,
    TRef.binary (TRef.of (T := ⟨S256x98304, .f32⟩) main_v0) (TRef.of (T := ⟨S256x98304, .f32⟩) main_v0) (TRef.of (T := ⟨S256x98304, .f32⟩) main_call0_v0) mulf,
    TRef.nullary (TRef.of (T := ⟨S_, .f32⟩) main_call0_cst) (constant S_ .f32 0x00000000#32),
    TRef.binary (TRef.of (T := ⟨S256x98304, .f32⟩) main_call0_v0) (TRef.of (T := ⟨S_, .f32⟩) main_call0_cst) (TRef.of (T := ⟨S256, .f32⟩) main_call0_v1) (fun x v => Host.reduceAdd x v reducesTo_S256x98304_S256_d1 h_S_),
    TRef.unary (TRef.of (T := ⟨S256, .f32⟩) main_call0_v1) (TRef.of (T := ⟨S256x1, .f32⟩) main_call0_v2) (broadcastInDim S256x1 ![0] bcast_S256_S256x1_0),
    TRef.unary (TRef.of (T := ⟨S256x1, .f32⟩) main_call0_v2) (TRef.of (T := ⟨S256x1, .f32⟩) main_v1) Host.sqrt,
    nullary main_cst_1 (constant S_ .f32 0x322BCC77#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S256x1, .f32⟩) main_call1_v1) (broadcastInDim S256x1 ![] bcast_S_S256x1),
    TRef.binary (TRef.of (T := ⟨S256x1, .f32⟩) main_call1_v1) (TRef.of (T := ⟨S256x1, .f32⟩) main_v1) (TRef.of (T := ⟨S256x1, .f32⟩) main_v2) maximumf,
    unary main_v2 main_v3 (broadcastInDim S256x98304 ![0, 1] bcast_S256x1_S256x98304_0_1 : (⟨S256x1, .f32⟩ : BufTy).Contents (Elt F) → (⟨S256x98304, .f32⟩ : BufTy).Contents (Elt F)),
    binary main_v0 main_v3 main_v4 (Host.divf : (⟨S256x98304, .f32⟩ : BufTy).Contents (Elt F) → (⟨S256x98304, .f32⟩ : BufTy).Contents (Elt F) → (⟨S256x98304, .f32⟩ : BufTy).Contents (Elt F)),
    unary main_v4 main_v5 ((transpose S98304x256 [1, 0] · transposes_S256x98304_S98304x256_1_0) : (⟨S256x98304, .f32⟩ : BufTy).Contents (Elt F) → (⟨S98304x256, .f32⟩ : BufTy).Contents (Elt F)),
    binary main_v4 main_v5 main_v6 ((fun l r => Host.dotGeneral dot_S256x98304_S98304x256_S256x256_1_0_0_1_n_n none l r) : (⟨S256x98304, .f32⟩ : BufTy).Contents (Elt F) → (⟨S98304x256, .f32⟩ : BufTy).Contents (Elt F) → (⟨S256x256, .f32⟩ : BufTy).Contents (Elt F)),
    unary main_arg1 main_v7 (broadcastInDim S256x1 ![0] bcast_S256_S256x1_0 : (⟨S256, .i32⟩ : BufTy).Contents (Elt F) → (⟨S256x1, .i32⟩ : BufTy).Contents (Elt F)),
    unary main_arg1 main_v8 (broadcastInDim S1x256 ![1] bcast_S256_S1x256_1 : (⟨S256, .i32⟩ : BufTy).Contents (Elt F) → (⟨S1x256, .i32⟩ : BufTy).Contents (Elt F)),
    unary main_v7 main_v9 (broadcastInDim S256x256 ![0, 1] bcast_S256x1_S256x256_0_1 : (⟨S256x1, .i32⟩ : BufTy).Contents (Elt F) → (⟨S256x256, .i32⟩ : BufTy).Contents (Elt F)),
    unary main_v8 main_v10 (broadcastInDim S256x256 ![0, 1] bcast_S1x256_S256x256_0_1 : (⟨S1x256, .i32⟩ : BufTy).Contents (Elt F) → (⟨S256x256, .i32⟩ : BufTy).Contents (Elt F)),
    binary main_v9 main_v10 main_v11 (cmpi .eq : (⟨S256x256, .i32⟩ : BufTy).Contents (Elt F) → (⟨S256x256, .i32⟩ : BufTy).Contents (Elt F) → (⟨S256x256, .i1⟩ : BufTy).Contents (Elt F)),
    nullary main_v12 (iotaInDim S256x256 32 0),
    nullary main_v13 (iotaInDim S256x256 32 1),
    nullary main_c (constantI S_ 32 0#32),
    unary main_c main_v14 (broadcastInDim S256x256 ![] bcast_S_S256x256 : (⟨S_, .i32⟩ : BufTy).Contents (Elt F) → (⟨S256x256, .i32⟩ : BufTy).Contents (Elt F)),
    binary main_v12 main_v14 main_v15 (addi : (⟨S256x256, .i32⟩ : BufTy).Contents (Elt F) → (⟨S256x256, .i32⟩ : BufTy).Contents (Elt F) → (⟨S256x256, .i32⟩ : BufTy).Contents (Elt F)),
    binary main_v15 main_v13 main_v16 (cmpi .eq : (⟨S256x256, .i32⟩ : BufTy).Contents (Elt F) → (⟨S256x256, .i32⟩ : BufTy).Contents (Elt F) → (⟨S256x256, .i1⟩ : BufTy).Contents (Elt F)),
    unary main_v16 main_v17 (noti : (⟨S256x256, .i1⟩ : BufTy).Contents (Elt F) → (⟨S256x256, .i1⟩ : BufTy).Contents (Elt F)),
    binary main_v11 main_v17 main_v18 (andi : (⟨S256x256, .i1⟩ : BufTy).Contents (Elt F) → (⟨S256x256, .i1⟩ : BufTy).Contents (Elt F) → (⟨S256x256, .i1⟩ : BufTy).Contents (Elt F)),
    unary main_v11 main_v19 (noti : (⟨S256x256, .i1⟩ : BufTy).Contents (Elt F) → (⟨S256x256, .i1⟩ : BufTy).Contents (Elt F)),
    TRef.unary (TRef.of (T := ⟨S_, .f32⟩) main_cst) (TRef.of (T := ⟨S256x256, .f32⟩) main_call2_v0) (broadcastInDim S256x256 ![] bcast_S_S256x256),
    TRef.ternary (TRef.of (T := ⟨S256x256, .i1⟩) main_v18) (TRef.of (T := ⟨S256x256, .f32⟩) main_v6) (TRef.of (T := ⟨S256x256, .f32⟩) main_call2_v0) (TRef.of (T := ⟨S256x256, .f32⟩) main_v20) select,
    nullary main_cst_2 (constant S_ .f32 0x7F800000#32),
    binary main_v20 main_cst_2 main_v21 ((fun x v => Host.reduce FloatOps.minimumf x v reducesTo_S256x256_S256_d1 h_S_) : (⟨S256x256, .f32⟩ : BufTy).Contents (Elt F) → (⟨S_, .f32⟩ : BufTy).Contents (Elt F) → (⟨S256, .f32⟩ : BufTy).Contents (Elt F)),
    TRef.unary (TRef.of (T := ⟨S_, .f32⟩) main_cst_0) (TRef.of (T := ⟨S256x256, .f32⟩) main_call3_v0) (broadcastInDim S256x256 ![] bcast_S_S256x256),
    TRef.ternary (TRef.of (T := ⟨S256x256, .i1⟩) main_v19) (TRef.of (T := ⟨S256x256, .f32⟩) main_v6) (TRef.of (T := ⟨S256x256, .f32⟩) main_call3_v0) (TRef.of (T := ⟨S256x256, .f32⟩) main_v22) select,
    nullary main_cst_3 (constant S_ .f32 0xFF800000#32),
    binary main_v22 main_cst_3 main_v23 ((fun x v => Host.reduce FloatOps.maximumf x v reducesTo_S256x256_S256_d1 h_S_) : (⟨S256x256, .f32⟩ : BufTy).Contents (Elt F) → (⟨S_, .f32⟩ : BufTy).Contents (Elt F) → (⟨S256, .f32⟩ : BufTy).Contents (Elt F)),
    nullary main_c_4 (constantI S_ 1 0#1),
    binary main_v18 main_c_4 main_v24 ((fun x v => Host.reduce IntOp.ori x v reducesTo_S256x256_S256_d1 h_S_) : (⟨S256x256, .i1⟩ : BufTy).Contents (Elt F) → (⟨S_, .i1⟩ : BufTy).Contents (Elt F) → (⟨S256, .i1⟩ : BufTy).Contents (Elt F)),
    nullary main_c_5 (constantI S_ 1 0#1),
    binary main_v19 main_c_5 main_v25 ((fun x v => Host.reduce IntOp.ori x v reducesTo_S256x256_S256_d1 h_S_) : (⟨S256x256, .i1⟩ : BufTy).Contents (Elt F) → (⟨S_, .i1⟩ : BufTy).Contents (Elt F) → (⟨S256, .i1⟩ : BufTy).Contents (Elt F)),
    binary main_v24 main_v25 main_v26 (andi : (⟨S256, .i1⟩ : BufTy).Contents (Elt F) → (⟨S256, .i1⟩ : BufTy).Contents (Elt F) → (⟨S256, .i1⟩ : BufTy).Contents (Elt F)),
    binary main_v23 main_v21 main_v27 (subf : (⟨S256, .f32⟩ : BufTy).Contents (Elt F) → (⟨S256, .f32⟩ : BufTy).Contents (Elt F) → (⟨S256, .f32⟩ : BufTy).Contents (Elt F)),
    nullary main_cst_6 (constant S_ .f32 0x3F800000#32),
    unary main_cst_6 main_v28 (broadcastInDim S256 ![] bcast_S_S256 : (⟨S_, .f32⟩ : BufTy).Contents (Elt F) → (⟨S256, .f32⟩ : BufTy).Contents (Elt F)),
    binary main_v27 main_v28 main_v29 (addf : (⟨S256, .f32⟩ : BufTy).Contents (Elt F) → (⟨S256, .f32⟩ : BufTy).Contents (Elt F) → (⟨S256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S256, .f32⟩) main_call4_v0) (broadcastInDim S256 ![] bcast_S_S256),
    TRef.binary (TRef.of (T := ⟨S256, .f32⟩) main_v29) (TRef.of (T := ⟨S256, .f32⟩) main_call4_v0) (TRef.of (T := ⟨S256, .f32⟩) main_v30) maximumf,
    unary main_v26 main_v31 ((extui 32 · natLt_1_32) : (⟨S256, .i1⟩ : BufTy).Contents (Elt F) → (⟨S256, .i32⟩ : BufTy).Contents (Elt F)),
    nullary main_c_7 (constantI S_ 32 0#32),
    binary main_v31 main_c_7 main_v32 ((fun x v => Host.reduce IntOp.addi x v reducesTo_S256_S_d0 h_S_) : (⟨S256, .i32⟩ : BufTy).Contents (Elt F) → (⟨S_, .i32⟩ : BufTy).Contents (Elt F) → (⟨S_, .i32⟩ : BufTy).Contents (Elt F)),
    nullary main_c_8 (constantI S_ 32 1#32),
    binary main_v32 main_c_8 main_v33 (maxsi : (⟨S_, .i32⟩ : BufTy).Contents (Elt F) → (⟨S_, .i32⟩ : BufTy).Contents (Elt F) → (⟨S_, .i32⟩ : BufTy).Contents (Elt F)),
    unary main_v33 main_v34 (sitofp .f32 : (⟨S_, .i32⟩ : BufTy).Contents (Elt F) → (⟨S_, .f32⟩ : BufTy).Contents (Elt F)),
    nullary main_c_9 (constantI S_ 32 0#32),
    binary main_v32 main_c_9 main_v35 (cmpi .sgt : (⟨S_, .i32⟩ : BufTy).Contents (Elt F) → (⟨S_, .i32⟩ : BufTy).Contents (Elt F) → (⟨S_, .i1⟩ : BufTy).Contents (Elt F)),
    nullary main_cst_10 (constant S_ .f32 0x00000000#32),
    TRef.unary (TRef.of (T := ⟨S_, .f32⟩) main_cst_10) (TRef.of (T := ⟨S_, .f32⟩) main_call5_v0) id,
    TRef.unary (TRef.of (T := ⟨S_, .f32⟩) main_call5_v0) (TRef.of (T := ⟨S256, .f32⟩) main_call5_v1) (broadcastInDim S256 ![] bcast_S_S256),
    TRef.ternary (TRef.of (T := ⟨S256, .i1⟩) main_v26) (TRef.of (T := ⟨S256, .f32⟩) main_v30) (TRef.of (T := ⟨S256, .f32⟩) main_call5_v1) (TRef.of (T := ⟨S256, .f32⟩) main_v36) select,
    nullary main_cst_11 (constant S_ .f32 0x00000000#32),
    binary main_v36 main_cst_11 main_v37 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    binary main_v37 main_v34 main_v38 (Host.divf : (⟨S_, .f32⟩ : BufTy).Contents (Elt F) → (⟨S_, .f32⟩ : BufTy).Contents (Elt F) → (⟨S_, .f32⟩ : BufTy).Contents (Elt F)),
    nullary main_cst_12 (constant S_ .f32 0x00000000#32),
    TRef.ternary (TRef.of (T := ⟨S_, .i1⟩) main_v35) (TRef.of (T := ⟨S_, .f32⟩) main_v38) (TRef.of (T := ⟨S_, .f32⟩) main_cst_12) (TRef.of (T := ⟨S_, .f32⟩) main_v39) select,
    TRef.unary (TRef.of (T := ⟨S_, .f32⟩) main_cst_0) (TRef.of (T := ⟨S256x256, .f32⟩) main_call7_v0) (broadcastInDim S256x256 ![] bcast_S_S256x256),
    TRef.ternary (TRef.of (T := ⟨S256x256, .i1⟩) main_v18) (TRef.of (T := ⟨S256x256, .f32⟩) main_v6) (TRef.of (T := ⟨S256x256, .f32⟩) main_call7_v0) (TRef.of (T := ⟨S256x256, .f32⟩) main_v40) select,
    nullary main_cst_13 (constant S_ .f32 0xFF800000#32),
    binary main_v40 main_cst_13 main_v41 ((fun x v => Host.reduce FloatOps.maximumf x v reducesTo_S256x256_S256_d1 h_S_) : (⟨S256x256, .f32⟩ : BufTy).Contents (Elt F) → (⟨S_, .f32⟩ : BufTy).Contents (Elt F) → (⟨S256, .f32⟩ : BufTy).Contents (Elt F)),
    binary main_v41 main_v23 main_v42 (cmpf .ogt : (⟨S256, .f32⟩ : BufTy).Contents (Elt F) → (⟨S256, .f32⟩ : BufTy).Contents (Elt F) → (⟨S256, .i1⟩ : BufTy).Contents (Elt F)),
    binary main_v42 main_v26 main_v43 (andi : (⟨S256, .i1⟩ : BufTy).Contents (Elt F) → (⟨S256, .i1⟩ : BufTy).Contents (Elt F) → (⟨S256, .i1⟩ : BufTy).Contents (Elt F)),
    unary main_v43 main_v44 (uitofp .f32 : (⟨S256, .i1⟩ : BufTy).Contents (Elt F) → (⟨S256, .f32⟩ : BufTy).Contents (Elt F)),
    nullary main_cst_14 (constant S_ .f32 0x00000000#32),
    binary main_v44 main_cst_14 main_v45 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_c_15 (constantI S_ 32 0#32),
    binary main_v32 main_c_15 main_v46 (cmpi .sgt : (⟨S_, .i32⟩ : BufTy).Contents (Elt F) → (⟨S_, .i32⟩ : BufTy).Contents (Elt F) → (⟨S_, .i1⟩ : BufTy).Contents (Elt F)),
    binary main_v45 main_v34 main_v47 (Host.divf : (⟨S_, .f32⟩ : BufTy).Contents (Elt F) → (⟨S_, .f32⟩ : BufTy).Contents (Elt F) → (⟨S_, .f32⟩ : BufTy).Contents (Elt F)),
    nullary main_cst_16 (constant S_ .f32 0x3F000000#32),
    TRef.ternary (TRef.of (T := ⟨S_, .i1⟩) main_v46) (TRef.of (T := ⟨S_, .f32⟩) main_v47) (TRef.of (T := ⟨S_, .f32⟩) main_cst_16) (TRef.of (T := ⟨S_, .f32⟩) main_v48) select ]

set_option maxRecDepth 8192 in
set_option maxHeartbeats 4000000 in
/-- The reference program is the straight line of its operations. -/
theorem main_eq (c : Dev nD) : main (F := F) c = seq ops := Eq.trans rfl rfl
/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., nullary_bufs_sub .., reshape_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., unary_bufs_sub .., ternary_bufs_sub .., nullary_bufs_sub .., binary_bufs_sub .., unary_bufs_sub .., ternary_bufs_sub .., nullary_bufs_sub .., binary_bufs_sub .., nullary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., unary_bufs_sub .., nullary_bufs_sub .., binary_bufs_sub .., nullary_bufs_sub .., binary_bufs_sub .., unary_bufs_sub .., nullary_bufs_sub .., binary_bufs_sub .., nullary_bufs_sub .., unary_bufs_sub .., unary_bufs_sub .., ternary_bufs_sub .., nullary_bufs_sub .., binary_bufs_sub .., binary_bufs_sub .., nullary_bufs_sub .., ternary_bufs_sub .., unary_bufs_sub .., ternary_bufs_sub .., nullary_bufs_sub .., binary_bufs_sub .., binary_bufs_sub .., binary_bufs_sub .., unary_bufs_sub .., nullary_bufs_sub .., binary_bufs_sub .., nullary_bufs_sub .., binary_bufs_sub .., binary_bufs_sub .., nullary_bufs_sub .., ternary_bufs_sub ..⟩

/-- The first sixteen operations: the two fill scalars, the flattening, the rows' clamped norms, the normalised
    rows, their transpose and the product. -/
abbrev opsHead : List (HloOp τ sig (Elt F)) :=
  [ nullary main_cst (constant S_ .f32 0x7149F2CA#32),
    nullary main_cst_0 (constant S_ .f32 0xF149F2CA#32),
    reshape main_arg0 main_v0 rfl shapeCasts_S256x512x24x8_S256x98304,
    TRef.binary (TRef.of (T := ⟨S256x98304, .f32⟩) main_v0) (TRef.of (T := ⟨S256x98304, .f32⟩) main_v0) (TRef.of (T := ⟨S256x98304, .f32⟩) main_call0_v0) mulf,
    TRef.nullary (TRef.of (T := ⟨S_, .f32⟩) main_call0_cst) (constant S_ .f32 0x00000000#32),
    TRef.binary (TRef.of (T := ⟨S256x98304, .f32⟩) main_call0_v0) (TRef.of (T := ⟨S_, .f32⟩) main_call0_cst) (TRef.of (T := ⟨S256, .f32⟩) main_call0_v1) (fun x v => Host.reduceAdd x v reducesTo_S256x98304_S256_d1 h_S_),
    TRef.unary (TRef.of (T := ⟨S256, .f32⟩) main_call0_v1) (TRef.of (T := ⟨S256x1, .f32⟩) main_call0_v2) (broadcastInDim S256x1 ![0] bcast_S256_S256x1_0),
    TRef.unary (TRef.of (T := ⟨S256x1, .f32⟩) main_call0_v2) (TRef.of (T := ⟨S256x1, .f32⟩) main_v1) Host.sqrt,
    nullary main_cst_1 (constant S_ .f32 0x322BCC77#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S256x1, .f32⟩) main_call1_v1) (broadcastInDim S256x1 ![] bcast_S_S256x1),
    TRef.binary (TRef.of (T := ⟨S256x1, .f32⟩) main_call1_v1) (TRef.of (T := ⟨S256x1, .f32⟩) main_v1) (TRef.of (T := ⟨S256x1, .f32⟩) main_v2) maximumf,
    unary main_v2 main_v3 (broadcastInDim S256x98304 ![0, 1] bcast_S256x1_S256x98304_0_1 : (⟨S256x1, .f32⟩ : BufTy).Contents (Elt F) → (⟨S256x98304, .f32⟩ : BufTy).Contents (Elt F)),
    binary main_v0 main_v3 main_v4 (Host.divf : (⟨S256x98304, .f32⟩ : BufTy).Contents (Elt F) → (⟨S256x98304, .f32⟩ : BufTy).Contents (Elt F) → (⟨S256x98304, .f32⟩ : BufTy).Contents (Elt F)),
    unary main_v4 main_v5 ((transpose S98304x256 [1, 0] · transposes_S256x98304_S98304x256_1_0) : (⟨S256x98304, .f32⟩ : BufTy).Contents (Elt F) → (⟨S98304x256, .f32⟩ : BufTy).Contents (Elt F)),
    binary main_v4 main_v5 main_v6 ((fun l r => Host.dotGeneral dot_S256x98304_S98304x256_S256x256_1_0_0_1_n_n none l r) : (⟨S256x98304, .f32⟩ : BufTy).Contents (Elt F) → (⟨S98304x256, .f32⟩ : BufTy).Contents (Elt F) → (⟨S256x256, .f32⟩ : BufTy).Contents (Elt F)) ]

/-- The remaining sixty-five operations, which read the score matrix, the labels and the two fill scalars. -/
abbrev opsTail : List (HloOp τ sig (Elt F)) :=
  [ unary main_arg1 main_v7 (broadcastInDim S256x1 ![0] bcast_S256_S256x1_0 : (⟨S256, .i32⟩ : BufTy).Contents (Elt F) → (⟨S256x1, .i32⟩ : BufTy).Contents (Elt F)),
    unary main_arg1 main_v8 (broadcastInDim S1x256 ![1] bcast_S256_S1x256_1 : (⟨S256, .i32⟩ : BufTy).Contents (Elt F) → (⟨S1x256, .i32⟩ : BufTy).Contents (Elt F)),
    unary main_v7 main_v9 (broadcastInDim S256x256 ![0, 1] bcast_S256x1_S256x256_0_1 : (⟨S256x1, .i32⟩ : BufTy).Contents (Elt F) → (⟨S256x256, .i32⟩ : BufTy).Contents (Elt F)),
    unary main_v8 main_v10 (broadcastInDim S256x256 ![0, 1] bcast_S1x256_S256x256_0_1 : (⟨S1x256, .i32⟩ : BufTy).Contents (Elt F) → (⟨S256x256, .i32⟩ : BufTy).Contents (Elt F)),
    binary main_v9 main_v10 main_v11 (cmpi .eq : (⟨S256x256, .i32⟩ : BufTy).Contents (Elt F) → (⟨S256x256, .i32⟩ : BufTy).Contents (Elt F) → (⟨S256x256, .i1⟩ : BufTy).Contents (Elt F)),
    nullary main_v12 (iotaInDim S256x256 32 0),
    nullary main_v13 (iotaInDim S256x256 32 1),
    nullary main_c (constantI S_ 32 0#32),
    unary main_c main_v14 (broadcastInDim S256x256 ![] bcast_S_S256x256 : (⟨S_, .i32⟩ : BufTy).Contents (Elt F) → (⟨S256x256, .i32⟩ : BufTy).Contents (Elt F)),
    binary main_v12 main_v14 main_v15 (addi : (⟨S256x256, .i32⟩ : BufTy).Contents (Elt F) → (⟨S256x256, .i32⟩ : BufTy).Contents (Elt F) → (⟨S256x256, .i32⟩ : BufTy).Contents (Elt F)),
    binary main_v15 main_v13 main_v16 (cmpi .eq : (⟨S256x256, .i32⟩ : BufTy).Contents (Elt F) → (⟨S256x256, .i32⟩ : BufTy).Contents (Elt F) → (⟨S256x256, .i1⟩ : BufTy).Contents (Elt F)),
    unary main_v16 main_v17 (noti : (⟨S256x256, .i1⟩ : BufTy).Contents (Elt F) → (⟨S256x256, .i1⟩ : BufTy).Contents (Elt F)),
    binary main_v11 main_v17 main_v18 (andi : (⟨S256x256, .i1⟩ : BufTy).Contents (Elt F) → (⟨S256x256, .i1⟩ : BufTy).Contents (Elt F) → (⟨S256x256, .i1⟩ : BufTy).Contents (Elt F)),
    unary main_v11 main_v19 (noti : (⟨S256x256, .i1⟩ : BufTy).Contents (Elt F) → (⟨S256x256, .i1⟩ : BufTy).Contents (Elt F)),
    TRef.unary (TRef.of (T := ⟨S_, .f32⟩) main_cst) (TRef.of (T := ⟨S256x256, .f32⟩) main_call2_v0) (broadcastInDim S256x256 ![] bcast_S_S256x256),
    TRef.ternary (TRef.of (T := ⟨S256x256, .i1⟩) main_v18) (TRef.of (T := ⟨S256x256, .f32⟩) main_v6) (TRef.of (T := ⟨S256x256, .f32⟩) main_call2_v0) (TRef.of (T := ⟨S256x256, .f32⟩) main_v20) select,
    nullary main_cst_2 (constant S_ .f32 0x7F800000#32),
    binary main_v20 main_cst_2 main_v21 ((fun x v => Host.reduce FloatOps.minimumf x v reducesTo_S256x256_S256_d1 h_S_) : (⟨S256x256, .f32⟩ : BufTy).Contents (Elt F) → (⟨S_, .f32⟩ : BufTy).Contents (Elt F) → (⟨S256, .f32⟩ : BufTy).Contents (Elt F)),
    TRef.unary (TRef.of (T := ⟨S_, .f32⟩) main_cst_0) (TRef.of (T := ⟨S256x256, .f32⟩) main_call3_v0) (broadcastInDim S256x256 ![] bcast_S_S256x256),
    TRef.ternary (TRef.of (T := ⟨S256x256, .i1⟩) main_v19) (TRef.of (T := ⟨S256x256, .f32⟩) main_v6) (TRef.of (T := ⟨S256x256, .f32⟩) main_call3_v0) (TRef.of (T := ⟨S256x256, .f32⟩) main_v22) select,
    nullary main_cst_3 (constant S_ .f32 0xFF800000#32),
    binary main_v22 main_cst_3 main_v23 ((fun x v => Host.reduce FloatOps.maximumf x v reducesTo_S256x256_S256_d1 h_S_) : (⟨S256x256, .f32⟩ : BufTy).Contents (Elt F) → (⟨S_, .f32⟩ : BufTy).Contents (Elt F) → (⟨S256, .f32⟩ : BufTy).Contents (Elt F)),
    nullary main_c_4 (constantI S_ 1 0#1),
    binary main_v18 main_c_4 main_v24 ((fun x v => Host.reduce IntOp.ori x v reducesTo_S256x256_S256_d1 h_S_) : (⟨S256x256, .i1⟩ : BufTy).Contents (Elt F) → (⟨S_, .i1⟩ : BufTy).Contents (Elt F) → (⟨S256, .i1⟩ : BufTy).Contents (Elt F)),
    nullary main_c_5 (constantI S_ 1 0#1),
    binary main_v19 main_c_5 main_v25 ((fun x v => Host.reduce IntOp.ori x v reducesTo_S256x256_S256_d1 h_S_) : (⟨S256x256, .i1⟩ : BufTy).Contents (Elt F) → (⟨S_, .i1⟩ : BufTy).Contents (Elt F) → (⟨S256, .i1⟩ : BufTy).Contents (Elt F)),
    binary main_v24 main_v25 main_v26 (andi : (⟨S256, .i1⟩ : BufTy).Contents (Elt F) → (⟨S256, .i1⟩ : BufTy).Contents (Elt F) → (⟨S256, .i1⟩ : BufTy).Contents (Elt F)),
    binary main_v23 main_v21 main_v27 (subf : (⟨S256, .f32⟩ : BufTy).Contents (Elt F) → (⟨S256, .f32⟩ : BufTy).Contents (Elt F) → (⟨S256, .f32⟩ : BufTy).Contents (Elt F)),
    nullary main_cst_6 (constant S_ .f32 0x3F800000#32),
    unary main_cst_6 main_v28 (broadcastInDim S256 ![] bcast_S_S256 : (⟨S_, .f32⟩ : BufTy).Contents (Elt F) → (⟨S256, .f32⟩ : BufTy).Contents (Elt F)),
    binary main_v27 main_v28 main_v29 (addf : (⟨S256, .f32⟩ : BufTy).Contents (Elt F) → (⟨S256, .f32⟩ : BufTy).Contents (Elt F) → (⟨S256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S256, .f32⟩) main_call4_v0) (broadcastInDim S256 ![] bcast_S_S256),
    TRef.binary (TRef.of (T := ⟨S256, .f32⟩) main_v29) (TRef.of (T := ⟨S256, .f32⟩) main_call4_v0) (TRef.of (T := ⟨S256, .f32⟩) main_v30) maximumf,
    unary main_v26 main_v31 ((extui 32 · natLt_1_32) : (⟨S256, .i1⟩ : BufTy).Contents (Elt F) → (⟨S256, .i32⟩ : BufTy).Contents (Elt F)),
    nullary main_c_7 (constantI S_ 32 0#32),
    binary main_v31 main_c_7 main_v32 ((fun x v => Host.reduce IntOp.addi x v reducesTo_S256_S_d0 h_S_) : (⟨S256, .i32⟩ : BufTy).Contents (Elt F) → (⟨S_, .i32⟩ : BufTy).Contents (Elt F) → (⟨S_, .i32⟩ : BufTy).Contents (Elt F)),
    nullary main_c_8 (constantI S_ 32 1#32),
    binary main_v32 main_c_8 main_v33 (maxsi : (⟨S_, .i32⟩ : BufTy).Contents (Elt F) → (⟨S_, .i32⟩ : BufTy).Contents (Elt F) → (⟨S_, .i32⟩ : BufTy).Contents (Elt F)),
    unary main_v33 main_v34 (sitofp .f32 : (⟨S_, .i32⟩ : BufTy).Contents (Elt F) → (⟨S_, .f32⟩ : BufTy).Contents (Elt F)),
    nullary main_c_9 (constantI S_ 32 0#32),
    binary main_v32 main_c_9 main_v35 (cmpi .sgt : (⟨S_, .i32⟩ : BufTy).Contents (Elt F) → (⟨S_, .i32⟩ : BufTy).Contents (Elt F) → (⟨S_, .i1⟩ : BufTy).Contents (Elt F)),
    nullary main_cst_10 (constant S_ .f32 0x00000000#32),
    TRef.unary (TRef.of (T := ⟨S_, .f32⟩) main_cst_10) (TRef.of (T := ⟨S_, .f32⟩) main_call5_v0) id,
    TRef.unary (TRef.of (T := ⟨S_, .f32⟩) main_call5_v0) (TRef.of (T := ⟨S256, .f32⟩) main_call5_v1) (broadcastInDim S256 ![] bcast_S_S256),
    TRef.ternary (TRef.of (T := ⟨S256, .i1⟩) main_v26) (TRef.of (T := ⟨S256, .f32⟩) main_v30) (TRef.of (T := ⟨S256, .f32⟩) main_call5_v1) (TRef.of (T := ⟨S256, .f32⟩) main_v36) select,
    nullary main_cst_11 (constant S_ .f32 0x00000000#32),
    binary main_v36 main_cst_11 main_v37 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    binary main_v37 main_v34 main_v38 (Host.divf : (⟨S_, .f32⟩ : BufTy).Contents (Elt F) → (⟨S_, .f32⟩ : BufTy).Contents (Elt F) → (⟨S_, .f32⟩ : BufTy).Contents (Elt F)),
    nullary main_cst_12 (constant S_ .f32 0x00000000#32),
    TRef.ternary (TRef.of (T := ⟨S_, .i1⟩) main_v35) (TRef.of (T := ⟨S_, .f32⟩) main_v38) (TRef.of (T := ⟨S_, .f32⟩) main_cst_12) (TRef.of (T := ⟨S_, .f32⟩) main_v39) select,
    TRef.unary (TRef.of (T := ⟨S_, .f32⟩) main_cst_0) (TRef.of (T := ⟨S256x256, .f32⟩) main_call7_v0) (broadcastInDim S256x256 ![] bcast_S_S256x256),
    TRef.ternary (TRef.of (T := ⟨S256x256, .i1⟩) main_v18) (TRef.of (T := ⟨S256x256, .f32⟩) main_v6) (TRef.of (T := ⟨S256x256, .f32⟩) main_call7_v0) (TRef.of (T := ⟨S256x256, .f32⟩) main_v40) select,
    nullary main_cst_13 (constant S_ .f32 0xFF800000#32),
    binary main_v40 main_cst_13 main_v41 ((fun x v => Host.reduce FloatOps.maximumf x v reducesTo_S256x256_S256_d1 h_S_) : (⟨S256x256, .f32⟩ : BufTy).Contents (Elt F) → (⟨S_, .f32⟩ : BufTy).Contents (Elt F) → (⟨S256, .f32⟩ : BufTy).Contents (Elt F)),
    binary main_v41 main_v23 main_v42 (cmpf .ogt : (⟨S256, .f32⟩ : BufTy).Contents (Elt F) → (⟨S256, .f32⟩ : BufTy).Contents (Elt F) → (⟨S256, .i1⟩ : BufTy).Contents (Elt F)),
    binary main_v42 main_v26 main_v43 (andi : (⟨S256, .i1⟩ : BufTy).Contents (Elt F) → (⟨S256, .i1⟩ : BufTy).Contents (Elt F) → (⟨S256, .i1⟩ : BufTy).Contents (Elt F)),
    unary main_v43 main_v44 (uitofp .f32 : (⟨S256, .i1⟩ : BufTy).Contents (Elt F) → (⟨S256, .f32⟩ : BufTy).Contents (Elt F)),
    nullary main_cst_14 (constant S_ .f32 0x00000000#32),
    binary main_v44 main_cst_14 main_v45 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_c_15 (constantI S_ 32 0#32),
    binary main_v32 main_c_15 main_v46 (cmpi .sgt : (⟨S_, .i32⟩ : BufTy).Contents (Elt F) → (⟨S_, .i32⟩ : BufTy).Contents (Elt F) → (⟨S_, .i1⟩ : BufTy).Contents (Elt F)),
    binary main_v45 main_v34 main_v47 (Host.divf : (⟨S_, .f32⟩ : BufTy).Contents (Elt F) → (⟨S_, .f32⟩ : BufTy).Contents (Elt F) → (⟨S_, .f32⟩ : BufTy).Contents (Elt F)),
    nullary main_cst_16 (constant S_ .f32 0x3F000000#32),
    TRef.ternary (TRef.of (T := ⟨S_, .i1⟩) main_v46) (TRef.of (T := ⟨S_, .f32⟩) main_v47) (TRef.of (T := ⟨S_, .f32⟩) main_cst_16) (TRef.of (T := ⟨S_, .f32⟩) main_v48) select ]

set_option maxRecDepth 8192 in
set_option maxHeartbeats 4000000 in
/-- After the first sixteen operations the product's buffer holds the score matrix of the flattened features. -/
theorem head_v6 (V : Valuation τ sig (Elt Ideal)) :
    after (opsHead (F := Ideal)) V (Proc.devRef .tc main_v6)
      = scoresOf (shapeCast _ (V (Proc.devRef .tc main_arg0)) shapeCasts_S256x512x24x8_S256x98304) := by
  after_results_simp
  repeat (first | rw [toBuf_of] | rw [ofBuf_of])
  rfl

/-- After them the first fill scalar's buffer holds 1e30. -/
theorem head_cst (V : Valuation τ sig (Elt Ideal)) :
    after (opsHead (F := Ideal)) V (Proc.devRef .tc main_cst) = constant (F := Ideal) S_ .f32 0x7149F2CA#32 := by
  after_results_simp

/-- And the second holds -1e30. -/
theorem head_cst_0 (V : Valuation τ sig (Elt Ideal)) :
    after (opsHead (F := Ideal)) V (Proc.devRef .tc main_cst_0) = constant (F := Ideal) S_ .f32 0xF149F2CA#32 := by
  after_results_simp

/-- They leave the labels as they were. -/
theorem head_arg1 (V : Valuation τ sig (Elt Ideal)) :
    after (opsHead (F := Ideal)) V (Proc.devRef .tc main_arg1) = V (Proc.devRef .tc main_arg1) := by
  after_results_simp

set_option maxRecDepth 8192 in
set_option maxHeartbeats 4000000 in
/-- From contents W holding the two fill constants, the remaining operations leave the first result at tail0 of W's
    score matrix and labels. -/
theorem tail_v39 (W : Valuation τ sig (Elt Ideal))
    (hp : W (Proc.devRef .tc main_cst) = constant (F := Ideal) S_ .f32 0x7149F2CA#32)
    (hn : W (Proc.devRef .tc main_cst_0) = constant (F := Ideal) S_ .f32 0xF149F2CA#32) :
    after (opsTail (F := Ideal)) W (Proc.devRef .tc main_v39)
      = tail0 (W (Proc.devRef .tc main_v6)) (W (Proc.devRef .tc main_arg1)) := by
  after_results_simp
  repeat (first | rw [toBuf_of] | rw [ofBuf_of])
  rw [hp, hn]
  rfl

set_option maxRecDepth 8192 in
set_option maxHeartbeats 4000000 in
/-- And the second result at tail1 of the same. -/
theorem tail_v48 (W : Valuation τ sig (Elt Ideal))
    (hp : W (Proc.devRef .tc main_cst) = constant (F := Ideal) S_ .f32 0x7149F2CA#32)
    (hn : W (Proc.devRef .tc main_cst_0) = constant (F := Ideal) S_ .f32 0xF149F2CA#32) :
    after (opsTail (F := Ideal)) W (Proc.devRef .tc main_v48)
      = tail1 (W (Proc.devRef .tc main_v6)) (W (Proc.devRef .tc main_arg1)) := by
  after_results_simp
  repeat (first | rw [toBuf_of] | rw [ofBuf_of])
  rw [hn]
  rfl

/-- The eighty-one operations are the first sixteen followed by the rest. -/
theorem ops_split : (ops : List (HloOp τ sig (Elt F))) = opsHead ++ opsTail := rfl

/-- The first result's buffer after all the operations, from the launch contents m on device c. -/
theorem res0 (m : (ℓ : Loc nD τ sig) → Buf (Elt Ideal) ℓ) (c : Dev nD) :
    after (ops (F := Ideal)) (launchContents m c) (Proc.devRef .tc main_v39)
      = tail0 (scoresOf (shapeCast _ (launchContents m c (Proc.devRef .tc main_arg0)) shapeCasts_S256x512x24x8_S256x98304))
          (launchContents m c (Proc.devRef .tc main_arg1)) := by
  rw [ops_split, after_append, tail_v39 _ (head_cst _) (head_cst_0 _), head_v6, head_arg1]

/-- The second result's buffer, likewise. -/
theorem res1 (m : (ℓ : Loc nD τ sig) → Buf (Elt Ideal) ℓ) (c : Dev nD) :
    after (ops (F := Ideal)) (launchContents m c) (Proc.devRef .tc main_v48)
      = tail1 (scoresOf (shapeCast _ (launchContents m c (Proc.devRef .tc main_arg0)) shapeCasts_S256x512x24x8_S256x98304))
          (launchContents m c (Proc.devRef .tc main_arg1)) := by
  rw [ops_split, after_append, tail_v48 _ (head_cst _) (head_cst_0 _), head_v6, head_arg1]

set_option maxRecDepth 8192 in
set_option maxHeartbeats 4000000 in
/-- On every device, from any memory with zero counters: every weakly fair execution of the reference program
    terminates with the first result at tail0 and the second at tail1 of the score matrix of the flattened features
    and the labels, the two arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39)
          = tail0 (scoresOf (shapeCast _ (m ((c.tc : Thread nD τ).loc main_arg0)) shapeCasts_S256x512x24x8_S256x98304))
              (m ((c.tc : Thread nD τ).loc main_arg1))
      ∧ r.2.mem ((c.tc : Thread nD τ).loc main_v48)
          = tail1 (scoresOf (shapeCast _ (m ((c.tc : Thread nD τ).loc main_arg0)) shapeCasts_S256x512x24x8_S256x98304))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v39).trans (res0 m c), (h c main_v48).trans (res1 m c),
      (h c main_arg0).trans (by after_results_simp <;> rfl),
      (h c main_arg1).trans (by after_results_simp <;> rfl)⟩)
    (run_seq scopedRefs_eq scopedSems_eq defs main (fun _ => ops) main_eq (fun _ => ops_sub) m ρ)

end Cert.Cosine.RefRun

end
-- ==== Proof.lean ====
/-
  The certificate's five claims. Both kernel programs (the word-level one and its idealization)
  are the same text: three host operations, one kernel region over a grid of 24 points, and
  sixty-five host operations. Their frames come from the region's run: the body is run once per
  case of its two conditions (first point, middle point, last point), two accumulators are
  carried from point to point, and the later host operations touch neither window's array nor an
  argument. The reference's frame is its run with the results dropped; its run is read in two stretches, the operations up to the score matrix and the operations after it. The idealization rewrote
  nothing, so there is nothing to preserve. For the value claim, at the ideal instance the
  kernel's region leaves the cosine scores — inner products of the rows of the flattened features
  over products of their clamped norms, the inner products and squared norms accumulated tile by
  tile — and the reference's matrix of normalised rows times its transpose is the same matrix
  when every feature is real (a finite sum of products of reals over positive reals); both then
  apply one and the same function of (scores, labels).
-/
import proofs.«125715_j54228257079749_1_alg».proof.Defs
import proofs.«125715_j54228257079749_1_alg».proof.Proof.Gen.Kernel
import proofs.«125715_j54228257079749_1_alg».proof.Proof.Gen.KernelIdeal
import proofs.«125715_j54228257079749_1_alg».proof.Proof.Gen.ReferenceIdeal
import proofs.«125715_j54228257079749_1_alg».proof.Proof.Gen.Pre_finite_inputs
import proofs.«125715_j54228257079749_1_alg».proof.Proof.FrameK
import proofs.«125715_j54228257079749_1_alg».proof.Proof.Bridge
import proofs.«125715_j54228257079749_1_alg».proof.Proof.RefRun

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => ⟨(h c).2.2.1, (h c).2.2.2⟩)
    (Cert.Cosine.RefRun.run m ρ)

theorem preserves : Cert.preserves_Kernel_KernelIdeal := trivial

/-- Both programs end with the shared tail of the cosine scores and the labels in their two results. -/
theorem algebraic : Cert.algebraic_KernelIdeal_ReferenceIdeal := by
  intro m ρ m' ρ' hpre hagree
  refine ⟨fun c => Cert.Cosine.Tail.tail0 (Cert.Cosine.G (Cert.KernelIdeal.Fr.X m c)) (m ((c.tc : Thread Cert.KernelIdeal.nD Cert.KernelIdeal.τ).loc Cert.KernelIdeal.main_arg1)),
    fun c => Cert.Cosine.Tail.tail1 (Cert.Cosine.G (Cert.KernelIdeal.Fr.X m c)) (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Cosine.Bridge.kres0 m c), (h c).2.1.trans (Cert.Cosine.Bridge.kres1 m c), (h c).2.2.1, (h c).2.2.2⟩)
      (Cert.KernelIdeal.Fr.krun m ρ)
  · refine (θ_run Cert.ReferenceIdeal.defs _ _).mono (fun _ h c => ⟨(h c).1.trans ?_, (h c).2.1.trans ?_, (h c).2.2.1, (h c).2.2.2⟩)
      (Cert.Cosine.RefRun.run m' ρ')
    · rw [(hagree c).1, (hagree c).2]
      exact congrArg (fun s => Cert.Cosine.Tail.tail0 s _) (Cert.Cosine.Bridge.ref_scores m hpre c)
    · rw [(hagree c).1, (hagree c).2]
      exact congrArg (fun s => Cert.Cosine.Tail.tail1 s _) (Cert.Cosine.Bridge.ref_scores m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
